-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S512x256 : Shape := ⟨2, ![512, 256]⟩
abbrev S1024x1 : Shape := ⟨2, ![1024, 1]⟩
abbrev S256x512 : Shape := ⟨2, ![256, 512]⟩
abbrev S1024x512 : Shape := ⟨2, ![1024, 512]⟩
abbrev S1x512 : Shape := ⟨2, ![1, 512]⟩
abbrev S1024 : Shape := ⟨1, ![1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x256, .bf16⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S512x256, .bf16⟩
  | .local _ .vmem, ⟨3, _⟩ => ⟨S512x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reducesTo_S8192x1_S_d0_1 : S8192x1.ReducesTo [0, 1] S_
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Runs.lean ====
/-
  The kernel body, run once per control case.

  The grid is 8 row blocks by 16 column blocks, the column block moving fastest. At a point the body
  (re)starts the per-row accumulator when the column block is the first, adds the block's masked
  exponential row sums to it, and copies it into the output block when the column block is the last.
  So a point is in one of three cases — first, middle, last column block — and in each the body's loads
  and stores are the same; here each case is run symbolically, and what the stores leave in the
  accumulator (and, in the last case, in the output block) is found as a list of pieces.
-/
import proofs.«141833_j2508260901226_1_alg».proof.Proof.Gen.Kernel.Launch
import proofs.«141833_j2508260901226_1_alg».proof.Proof.Gen.Kernel.Skeleton
import proofs.«141833_j2508260901226_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The two branch conditions, in closed form over the grid -/

/-- The column block is the first one. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The column block is the last one. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_q : ∀ t : Fin cfg0.N, cfg0.idle 0 (grid0.coords t) = false := by decide +kernel
theorem live_k : ∀ t : Fin cfg0.N, cfg0.idle 1 (grid0.coords t) = false := by decide +kernel
/-- Away from the last column block the output block is not stored into, and not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev VOut : View sig .tc .vmem S1024x1 .f32 := (Memref.whole cc0_stg2_0 : Memref sig .tc .vmem S1024x1 .f32).view
abbrev mq (t : Fin cfg0.N) : Memref sig .tc .vmem S1024x256 .bf16 := win0_0.stage (cfg0.slots t 0)
abbrev hmq (t : Fin cfg0.N) : (mq t).IsWhole := hstage0_0 ((cfg0.slots t 0).cast nbuf0_0)
abbrev mk (t : Fin cfg0.N) : Memref sig .tc .vmem S512x256 .bf16 := win0_1.stage (cfg0.slots t 1)
abbrev hmk (t : Fin cfg0.N) : (mk t).IsWhole := hstage0_1 ((cfg0.slots t 1).cast nbuf0_1)
abbrev mo (t : Fin cfg0.N) : Memref sig .tc .vmem S1024x1 .f32 := win0_2.stage (cfg0.slots t 2)
abbrev hmo (t : Fin cfg0.N) : (mo t).IsWhole := hstage0_2 ((cfg0.slots t 2).cast nbuf0_2)
/-- The accumulator: a scratch buffer of the kernel's own, carried from point to point. -/
abbrev accM : Memref sig .tc .vmem S1024x1 .f32 := Memref.whole cc0_scratch0
abbrev VAcc : View sig .tc .vmem S1024x1 .f32 := accM.view

/-- What the region hands the body besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three runs -/

set_option maxHeartbeats 1000000 in
/-- First column block (not the last): the accumulator, at anything, ends with the pieces `LS`; the output block is handed
    back untouched. -/
noncomputable def runFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 : Vec F S1024x256 .bf16) (x1 : Vec F S512x256 .bf16) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, fun xi E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle column block: the accumulator, at what the point before left (`xs`), ends with the pieces `LS`; the output
    block is handed back untouched. -/
noncomputable def runMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 : Vec F S1024x256 .bf16) (x1 : Vec F S512x256 .bf16) (xs : Vec F S1024x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, fun xi E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last column block (not the first): the accumulator ends with the pieces `LS`, and the output block, at anything,
    with the pieces `L`. -/
noncomputable def runLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 : Vec F S1024x256 .bf16) (x1 : Vec F S512x256 .bf16) (xs : Vec F S1024x1 .f32) :
    Σ' (L : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, ?_, fun E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.K.Body.lean ====
/-
  From the three runs to the pipeline's proof data.

  What each case leaves in the accumulator (and the last case in the output block) is its pieces read back;
  the accumulator after point `n` is then defined by recursion on the point — restarted at a first column
  block, carried from the point before otherwise —, and the region's invariant names it. The two input
  windows read ONE array (the normalised matrix, once by row block and once by column block), so the proof
  data hold it at two half shares.
-/
import proofs.«141833_j2508260901226_1_alg».proof.Proof.K.Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## What each case leaves -/

theorem cover_first (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 : Vec F S1024x256 .bf16) (x1 : Vec F S512x256 .bf16) (y : S1024x1.Idx) :
    ∃ pc ∈ (runFirst (F := F) c i arg2 harg2 arg3 harg3 arg4 harg4 arg5 harg5 hc0 hc1 x0 x1).1, y ∈ pc.1.set :=
  View.cover_of_tiledL (runFirst (F := F) c i arg2 harg2 arg3 harg3 arg4 harg4 arg5 harg5 hc0 hc1 x0 x1).1 S1024x1.size (by sl_kernel_rfl) y

/-- The accumulator after a first column block. -/
def accFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 : Vec F S1024x256 .bf16) (x1 : Vec F S512x256 .bf16) : Vec F S1024x1 .f32 :=
  VAcc.read (Elt F) (VAcc.writes (Elt F) VAcc.junk (runFirst (F := F) c i arg2 harg2 arg3 harg3 arg4 harg4 arg5 harg5 hc0 hc1 x0 x1).1)

theorem cover_mid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 : Vec F S1024x256 .bf16) (x1 : Vec F S512x256 .bf16) (xs : Vec F S1024x1 .f32) (y : S1024x1.Idx) :
    ∃ pc ∈ (runMid (F := F) c i arg2 harg2 arg3 harg3 arg4 harg4 arg5 harg5 hc0 hc1 x0 x1 xs).1, y ∈ pc.1.set :=
  View.cover_of_tiledL (runMid (F := F) c i arg2 harg2 arg3 harg3 arg4 harg4 arg5 harg5 hc0 hc1 x0 x1 xs).1 S1024x1.size (by sl_kernel_rfl) y

/-- The accumulator after a middle column block, from what the point before left. -/
def accMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 : Vec F S1024x256 .bf16) (x1 : Vec F S512x256 .bf16) (xs : Vec F S1024x1 .f32) : Vec F S1024x1 .f32 :=
  VAcc.read (Elt F) (VAcc.writes (Elt F) VAcc.junk (runMid (F := F) c i arg2 harg2 arg3 harg3 arg4 harg4 arg5 harg5 hc0 hc1 x0 x1 xs).1)

theorem cover_last_out (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) (y : S1024x1.Idx) :
    ∃ pc ∈ (runLast (F := F) c i arg2 harg2 arg3 harg3 arg4 harg4 arg5 harg5 hc0 hc1 x0 x1 xs).1, y ∈ pc.1.set :=
  View.cover_of_tiledL (runLast (F := F) c i arg2 harg2 arg3 harg3 arg4 harg4 arg5 harg5 hc0 hc1 x0 x1 xs).1 S1024x1.size (by sl_kernel_rfl) y

/-- The output block after the last column block. -/
def outLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) : Vec F S1024x1 .f32 :=
  VOut.read (Elt F) (VOut.writes (Elt F) VOut.junk (runLast (F := F) c i arg2 harg2 arg3 harg3 arg4 harg4 arg5 harg5 hc0 hc1 x0 x1 xs).1)

theorem cover_last_acc (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) (y : S1024x1.Idx) :
    ∃ pc ∈ (runLast (F := F) c i arg2 harg2 arg3 harg3 arg4 harg4 arg5 harg5 hc0 hc1 x0 x1 xs).2.1, y ∈ pc.1.set :=
  View.cover_of_tiledL (runLast (F := F) c i arg2 harg2 arg3 harg3 arg4 harg4 arg5 harg5 hc0 hc1 x0 x1 xs).2.1 S1024x1.size (by sl_kernel_rfl) y

/-- The accumulator after the last column block. -/
def accLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) : Vec F S1024x1 .f32 :=
  VAcc.read (Elt F) (VAcc.writes (Elt F) VAcc.junk (runLast (F := F) c i arg2 harg2 arg3 harg3 arg4 harg4 arg5 harg5 hc0 hc1 x0 x1 xs).2.1)

/-- A stand-in for the output block's contents at a point that does not store into it: nothing reads it. -/
def noOut : Vec F S1024x1 .f32 := VOut.read (Elt F) (VOut.writes (Elt F) VOut.junk [])

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_q_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- After point `n`: the output block's staging buffer and the accumulator. -/
def outsAt (c : Dev nD) : (n : ℕ) → n < cfg0.N → Vec F S1024x1 .f32 × Vec F S1024x1 .f32
  | 0, hn => (noOut, accFirst c (grid0.coords ⟨0, hn⟩) (mq ⟨0, hn⟩) (hmq ⟨0, hn⟩) (mk ⟨0, hn⟩) (hmk ⟨0, hn⟩) (mo ⟨0, hn⟩) (hmo ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 16 = 0 then
      (noOut, accFirst c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩))
    else if h1 : (n + 1) % 16 = 15 then
      (outLast c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2,
       accLast c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
    else
      (noOut, accMid c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg0.N) (h0 : t.val % 16 = 0) (hl : ¬isLast (grid0.coords t)) :
    outsAt V c t.val t.isLt = (noOut, accFirst c (grid0.coords t) (mq t) (hmq t) (mk t) (hmk t) (mo t) (hmo t) accM (Memref.isWhole_whole _) ((isFirst_iff t).mpr h0) hl (iblk V c 0 t) (iblk V c 1 t)) := by
  obtain ⟨n, hn⟩ := t
  cases n with
  | zero => exact rfl
  | succ n => exact (dif_pos h0).trans rfl

theorem outsAt_last (c : Dev nD) (t : Fin cfg0.N) (h0 : ¬t.val % 16 = 0) (h1 : t.val % 16 = 15) :
    outsAt V c t.val t.isLt = (outLast c (grid0.coords t) (mq t) (hmq t) (mk t) (hmk t) (mo t) (hmo t) accM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2,
      accLast c (grid0.coords t) (mq t) (hmq t) (mk t) (hmk t) (mo t) (hmo t) accM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt_mid (c : Dev nD) (t : Fin cfg0.N) (h0 : ¬t.val % 16 = 0) (h1 : ¬t.val % 16 = 15) :
    outsAt V c t.val t.isLt = (noOut, accMid c (grid0.coords t) (mq t) (hmq t) (mk t) (hmk t) (mo t) (hmo t) accM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: at the start what the launch hands over (the accumulator at anything); afterwards
    the accumulator at what the point before left, and the generator register. -/
def PhiS (c : Dev nD) : (n : ℕ) → n ≤ cfg0.N → sProp 𝕄
  | 0, _ => Pipeline.ΦA spec0 c
  | n + 1, hn => iprop(iprop(owns (c : Thread nD τ) accM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2)) ∗ (∃ r, prngReg c r)) := by
  cases n with
  | zero => exact absurd rfl hz
  | succ n => rfl

/-! ## The proof data -/

/-- The pipeline's proof data on core `c`: the arrays as the region finds them; each input's buffer at its block; the output's
    at `outsAt`; the invariant `PhiS`; the shared input array at two half shares; nothing owed. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_q (c : Dev nD) (t : Fin cfg0.N) : (dat V c).after 0 t = iblk V c 0 t := by dsimp only [dat]
theorem after_k (c : Dev nD) (t : Fin cfg0.N) : (dat V c).after 1 t = iblk V c 1 t := by dsimp only [dat]
theorem after_o (c : Dev nD) (t : Fin cfg0.N) : (dat V c).after 2 t = (outsAt V c t.val t.isLt).1 := by dsimp only [dat]

theorem before_q (c : Dev nD) (t : Fin cfg0.N) (d) : (dat V c).before 0 t d = iblk V c 0 t :=
  before_q_of V (dat V c) (A_eq V c 0) (after_q V c) t d
theorem before_k (c : Dev nD) (t : Fin cfg0.N) (d) : (dat V c).before 1 t d = iblk V c 1 t :=
  before_k_of V (dat V c) (A_eq V c 1) (after_k V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's residue mod 16 says which case it is in; the invariant
    hands over the accumulator at what the point before left (at anything at a first column block) and takes it back at this
    point's contents; the output block is handed back untouched unless this is a last column block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_k]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  by_cases h0 : t.val % 16 = 0
  · have hl : ¬isLast (grid0.coords t) := fun h => by have := (isLast_iff t).mp h; omega
    rw [Dat.leavesExact_idle (dat V c) 2 t (idle_out t hl) (noFlush_out t hl)]
    rw [outsAt_first V c t h0 hl]
    unfold accFirst; (try dsimp only)
    by_cases hz : t.val = 0
    · rw [PhiS_castSucc V c t, PhiS_zero V c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (mo t) fullShare ((dat V c).after 2 t) from by
        unfold Dat.leavesExact; rw [live_out t ((isLast_iff t).mpr h1)], after_o]
      rw [outsAt_last V c t h0 h1]
      unfold outLast accLast; (try dsimp only)
      rw [PhiS_castSucc V c t, PhiS_pos V c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬isLast (grid0.coords t) := fun h => h1 ((isLast_iff t).mp h)
      rw [Dat.leavesExact_idle (dat V c) 2 t (idle_out t hl) (noFlush_out t hl)]
      rw [outsAt_mid V c t h0 h1]
      unfold accMid; (try dsimp only)
      rw [PhiS_castSucc V c t, PhiS_pos V c _ _ hz]
      iintro ⟨⟨HS, Hg⟩, Ho, ⟨%d0, H0⟩, ⟨%d1, H1⟩, ⟨%d2, H2⟩⟩
      iapply ((runMid c (grid0.coords t) _ _ _ _ _ _ _ _ (fun h => h0 ((isFirst_iff t).mp h)) hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the same back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨HS, Hg⟩
  isplitl [HS]
  · iexists _; iexact HS
  iexact Hg

end Region

end Cert.Kernel.Frm

end
-- ==== Proof.K.Launch.lean ====
/-
  The region's entry and exit: the two buffers the windows stage, split out of a core's unscoped buffers.

  The two input windows read ONE buffer, the normalised matrix: at the region's entry its full share is split into two
  half shares, one per window, and at the exit the halves are joined again (an input array is never written, so both
  still hold the entry contents). The third window's buffer, the row sums, leaves at what the write-backs made of it.
  Everything is stated for ANY valuation `W` of the core's buffers, so that no host operation is ever unfolded here.
-/
import proofs.«141833_j2508260901226_1_alg».proof.Proof.K.Body

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Split
variable (V : (c : Dev nD) → (b : Ref sig .tc) → Buf (Elt F) ((c : Thread nD τ).loc b))

def arrS : Finset (DevRef τ sig) := {Proc.devRef .tc main_v5, Proc.devRef .tc main_v6}
theorem arrS_sub : (arrS : Finset (DevRef τ sig)) ⊆ Pipeline.ucRefs τ sig := by decide

theorem held_arrS (c : Dev nD) (W : Valuation τ sig (Elt F)) :
    (StableHlo.held (c : Thread nD τ) arrS W : sProp 𝕄)
      = iprop(((((c : Thread nD τ)).1, Proc.devRef .tc main_v5) ↦{fullShare} W (Proc.devRef .tc main_v5))
          ∗ ((((c : Thread nD τ)).1, Proc.devRef .tc main_v6) ↦{fullShare} W (Proc.devRef .tc main_v6))) := by
  unfold StableHlo.held arrS
  rw [BI.bigSep_eq_bigSepL_of_eq [Proc.devRef .tc main_v5, Proc.devRef .tc main_v6] (by decide) (by decide)]; rfl

/-- The proof data's arrays, window by window: the matrix at a half share twice, the row sums at the full share. -/
theorem arrays_open (c : Dev nD) (f0 f1 : Buf (Elt F) ((((c : Thread nD τ)).1, Proc.devRef .tc main_v5))) (f2 : Buf (Elt F) ((((c : Thread nD τ)).1, Proc.devRef .tc main_v6))) :
    (dat V c).arrays (fun w => match w with | ⟨0, _⟩ => f0 | ⟨1, _⟩ => f1 | ⟨2, _⟩ => f2)
      = iprop(((((c : Thread nD τ)).1, Proc.devRef .tc main_v5) ↦{fullShare.left} f0)
          ∗ ((((c : Thread nD τ)).1, Proc.devRef .tc main_v5) ↦{fullShare.right} f1)
          ∗ ((((c : Thread nD τ)).1, Proc.devRef .tc main_v6) ↦{fullShare} f2)) := by
  unfold Dat.arrays; rw [bigSep_W0]
  rw [(arr_whole0 0).set_eq_univ, (arr_whole0 2).set_eq_univ]
  rfl

/-- The entry contents of the three windows' arrays, read off any valuation that the region-entry contents are. -/
theorem arrAt0_eq (c : Dev nD) (W : Valuation τ sig (Elt F)) (hW : ∀ b : Ref sig .tc, V c b = W (Proc.devRef .tc b)) :
    (fun w => (dat V c).arrAt w 0)
      = (fun w => match w with | ⟨0, _⟩ => W (Proc.devRef .tc main_v5) | ⟨1, _⟩ => W (Proc.devRef .tc main_v5) | ⟨2, _⟩ => W (Proc.devRef .tc main_v6)) := by
  funext w
  match w with
  | ⟨0, _⟩ => exact (A_eq V c 0).trans (hW _)
  | ⟨1, _⟩ => exact (A_eq V c 1).trans (hW _)
  | ⟨2, _⟩ => exact (A_eq V c 2).trans (hW _)

/-- The final contents: the input array's as entered (an input is never written), the row sums' at what the write-backs leave. -/
theorem arrAtN_eq (c : Dev nD) (W : Valuation τ sig (Elt F)) (hW : ∀ b : Ref sig .tc, V c b = W (Proc.devRef .tc b)) :
    (fun w => (dat V c).arrAt w cfg0.N)
      = (fun w => match w with | ⟨0, _⟩ => W (Proc.devRef .tc main_v5) | ⟨1, _⟩ => W (Proc.devRef .tc main_v5) | ⟨2, _⟩ => (dat V c).arrAt 2 cfg0.N) := by
  funext w
  match w with
  | ⟨0, _⟩ => exact ((dat V c).arrAt_in 0 rfl _).trans ((A_eq V c 0).trans (hW _))
  | ⟨1, _⟩ => exact ((dat V c).arrAt_in 1 rfl _).trans ((A_eq V c 1).trans (hW _))
  | ⟨2, _⟩ => rfl

/-- ENTRY: a core's unscoped buffers at the entry contents are the proof data's arrays — the matrix at its two half shares — and the rest. -/
theorem entry_split (c : Dev nD) (W : Valuation τ sig (Elt F)) (hW : ∀ b : Ref sig .tc, V c b = W (Proc.devRef .tc b)) :
    (StableHlo.held (c : Thread nD τ) (Pipeline.ucRefs τ sig) W : sProp 𝕄)
      ⊢ iprop((dat V c).arrays ((dat V c).arrAt · 0) ∗ StableHlo.held (c : Thread nD τ) (Pipeline.ucRefs τ sig \ arrS) W) := by
  rw [StableHlo.held_sub_split _ arrS_sub, held_arrS, arrAt0_eq V c W hW, arrays_open]
  iintro ⟨⟨H5, H6⟩, Hr⟩
  ihave H5' := (pointsTo_share (PosShare.mem_left_op_right fullShare)).1 $$ H5
  icases H5' with ⟨Hl, Hrr⟩
  isplitr [Hr]; swap; · iexact Hr
  isplitl [Hl]; · iexact Hl
  isplitl [Hrr]; · iexact Hrr
  iexact H6

/-- EXIT: the arrays at their final contents and the rest make the unscoped buffers again, the row sums' buffer updated. -/
theorem exit_join (c : Dev nD) (W : Valuation τ sig (Elt F)) (hW : ∀ b : Ref sig .tc, V c b = W (Proc.devRef .tc b)) :
    iprop((dat V c).arrays ((dat V c).arrAt · cfg0.N) ∗ StableHlo.held (c : Thread nD τ) (Pipeline.ucRefs τ sig \ arrS) W)
      ⊢ (StableHlo.held (c : Thread nD τ) (Pipeline.ucRefs τ sig) (Function.update W (Proc.devRef .tc main_v6) ((dat V c).arrAt 2 cfg0.N)) : sProp 𝕄) := by
  rw [StableHlo.held_sub_split _ arrS_sub (Function.update W (Proc.devRef .tc main_v6) ((dat V c).arrAt 2 cfg0.N)), held_arrS, arrAtN_eq V c W hW, arrays_open]
  rw [show StableHlo.held (c : Thread nD τ) (Pipeline.ucRefs τ sig \ arrS) (Function.update W (Proc.devRef .tc main_v6) ((dat V c).arrAt 2 cfg0.N))
        = (StableHlo.held (c : Thread nD τ) (Pipeline.ucRefs τ sig \ arrS) W : sProp 𝕄) from by
      unfold StableHlo.held
      exact BI.bigSep_congr fun b hb => by
        have hne : b ≠ Proc.devRef .tc main_v6 := fun h => (Finset.mem_sdiff.mp hb).2 (by
          rw [h]; unfold arrS; exact Finset.mem_insert_of_mem (Finset.mem_singleton_self _))
        rw [Function.update_of_ne hne]]
  rw [Function.update_self, Function.update_of_ne (by decide : (Proc.devRef .tc main_v5 : DevRef τ sig) ≠ Proc.devRef .tc main_v6)]
  iintro ⟨⟨Hl, Hrr, H6⟩, Hr⟩
  isplitr [Hr]; swap; · iexact Hr
  isplitl [Hl Hrr]
  · iapply (pointsTo_share (PosShare.mem_left_op_right fullShare)).2
    isplitl [Hl]; · iexact Hl
    iexact Hrr
  iexact H6

end Split

end Cert.Kernel.Frm

end
-- ==== Proof.K.Run.lean ====
/-
  The whole program's run: host operations, the kernel region, host operations.

  The buffer contents at each boundary are a fold from the launch memory: the two stretches of host operations
  before the region (the row norms, then the normalised matrix), the region (which changes the row-sum array only),
  the stretch after it (the logarithms and their mean). Every weakly fair execution terminates; the final memory holds
  the fold's last contents at the result and the argument as launched.
-/
import proofs.«141833_j2508260901226_1_alg».proof.Proof.K.Launch

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the row norms. -/
def W1 (c : Dev nD) : Valuation τ sig (Elt F) := StableHlo.after hostOps0 (W0 m ρ c)
/-- After the normalisation: the region's entry. -/
def W2 (c : Dev nD) : Valuation τ sig (Elt F) := StableHlo.after hostOps0_1 (W1 m ρ c)
abbrev V2 : (c : Dev nD) → (b : Ref sig .tc) → Buf (Elt F) ((c : Thread nD τ).loc b) := fun c b => W2 m ρ c b
/-- At the region's exit: the row-sum array at what the write-backs leave, everything else as entered. -/
def W3 (c : Dev nD) : Valuation τ sig (Elt F) :=
  Function.update (W2 m ρ c) (Proc.devRef .tc main_v6) ((dat (V2 m ρ) c).arrAt 2 cfg0.N)
/-- After the last stretch. -/
def W4 (c : Dev nD) : Valuation τ sig (Elt F) := StableHlo.after hostOps1 (W3 m ρ c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (Pipeline.UD sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The kernel region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := StableHlo.held (c : Thread nD τ) (Pipeline.ucRefs τ sig \ arrS) (W2 m ρ c)
  hentry c := by
    rw [Pipeline.ownSems0_none]
    have hsplit := entry_split (V2 m ρ) c (W2 m ρ c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V2 m ρ) c)
    unfold Pipeline.ΦA
    iintro ⟨Hp, -, Hr⟩
    isplitl [Hr]; · iexact Hr
    iexact Hp
  hout c := by
    rw [Pipeline.ownSems0_none]
    refine BIBase.Entails.trans (hout (V2 m ρ) c) ?_
    unfold Pipeline.ΦA
    iintro ⟨Hr, Hp⟩
    isplitl [Hp]; · iexact Hp
    isplitr; · iempintro
    iexact Hr
  hexit c := by
    have hjoin := exit_join (V2 m ρ) c (W2 m ρ c) (fun _ => rfl)
    iintro ⟨Ha, HO, HY, Hrest⟩
    imodintro
    isplitl [Ha Hrest]
    · unfold W3; iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, and every final state agrees with the last boundary's
    contents on every unscoped buffer. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Frm

end
-- ==== Proof.K.Frame.lean ====
/-
  The frame: the program terminates, nothing faults, and the argument array ends as launched — no host operation
  writes it, and the region only reads the normalised matrix and writes the row sums.
-/
import proofs.«141833_j2508260901226_1_alg».proof.Proof.K.Run
import Idealize.ShloMosaic.Lib.StableHlo.Run

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No operation of the two stretches before the region writes the argument, -/
theorem arg_before (W : Valuation τ sig (Elt F)) :
    StableHlo.after hostOps0_1 (StableHlo.after hostOps0 W) (Proc.devRef .tc main_arg0) = W (Proc.devRef .tc main_arg0) := by
  after_results_simp <;> rfl

/-- nor any operation after it. -/
theorem arg_behind (W : Valuation τ sig (Elt F)) :
    StableHlo.after hostOps1 W (Proc.devRef .tc main_arg0) = W (Proc.devRef .tc main_arg0) := by
  after_results_simp <;> rfl

/-- The argument at the last boundary is the launch memory's. -/
theorem W4_arg (c : Dev nD) : W4 m ρ c (Proc.devRef .tc main_arg0) = m ((c : Thread nD τ).loc main_arg0) := by
  unfold W4; rw [arg_behind]
  unfold W3; rw [Function.update_of_ne (by decide : (Proc.devRef .tc main_arg0 : DevRef τ sig) ≠ Proc.devRef .tc main_v6)]
  unfold W2 W1; rw [arg_before]

/-- The run with the result buffer named: it ends at the fold's last contents. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)) :=
  (θ_run defs _ _).mono (fun _ h c => ⟨h c _ (mem_uc main_v13 (by decide)),
    (h c _ (mem_uc main_arg0 (by decide))).trans (W4_arg m ρ c)⟩) (run_main m ρ)

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_result m ρ)

end Cert.Kernel.Frm

end
-- ==== Proof.KI.Runs.lean ====
/-
  The kernel body, run once per control case.

  The grid is 8 row blocks by 16 column blocks, the column block moving fastest. At a point the body
  (re)starts the per-row accumulator when the column block is the first, adds the block's masked
  exponential row sums to it, and copies it into the output block when the column block is the last.
  So a point is in one of three cases — first, middle, last column block — and in each the body's loads
  and stores are the same; here each case is run symbolically, and what the stores leave in the
  accumulator (and, in the last case, in the output block) is found as a list of pieces.
-/
import proofs.«141833_j2508260901226_1_alg».proof.Proof.Gen.KernelIdeal.Launch
import proofs.«141833_j2508260901226_1_alg».proof.Proof.Gen.KernelIdeal.Skeleton
import proofs.«141833_j2508260901226_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The two branch conditions, in closed form over the grid -/

/-- The column block is the first one. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The column block is the last one. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_q : ∀ t : Fin cfg0.N, cfg0.idle 0 (grid0.coords t) = false := by decide +kernel
theorem live_k : ∀ t : Fin cfg0.N, cfg0.idle 1 (grid0.coords t) = false := by decide +kernel
/-- Away from the last column block the output block is not stored into, and not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev VOut : View sig .tc .vmem S1024x1 .f32 := (Memref.whole cc0_stg2_0 : Memref sig .tc .vmem S1024x1 .f32).view
abbrev mq (t : Fin cfg0.N) : Memref sig .tc .vmem S1024x256 .bf16 := win0_0.stage (cfg0.slots t 0)
abbrev hmq (t : Fin cfg0.N) : (mq t).IsWhole := hstage0_0 ((cfg0.slots t 0).cast nbuf0_0)
abbrev mk (t : Fin cfg0.N) : Memref sig .tc .vmem S512x256 .bf16 := win0_1.stage (cfg0.slots t 1)
abbrev hmk (t : Fin cfg0.N) : (mk t).IsWhole := hstage0_1 ((cfg0.slots t 1).cast nbuf0_1)
abbrev mo (t : Fin cfg0.N) : Memref sig .tc .vmem S1024x1 .f32 := win0_2.stage (cfg0.slots t 2)
abbrev hmo (t : Fin cfg0.N) : (mo t).IsWhole := hstage0_2 ((cfg0.slots t 2).cast nbuf0_2)
/-- The accumulator: a scratch buffer of the kernel's own, carried from point to point. -/
abbrev accM : Memref sig .tc .vmem S1024x1 .f32 := Memref.whole cc0_scratch0
abbrev VAcc : View sig .tc .vmem S1024x1 .f32 := accM.view

/-- What the region hands the body besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three runs -/

set_option maxHeartbeats 1000000 in
/-- First column block (not the last): the accumulator, at anything, ends with the pieces `LS`; the output block is handed
    back untouched. -/
noncomputable def runFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 : Vec F S1024x256 .bf16) (x1 : Vec F S512x256 .bf16) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, fun xi E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle column block: the accumulator, at what the point before left (`xs`), ends with the pieces `LS`; the output
    block is handed back untouched. -/
noncomputable def runMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 : Vec F S1024x256 .bf16) (x1 : Vec F S512x256 .bf16) (xs : Vec F S1024x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, fun xi E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last column block (not the first): the accumulator ends with the pieces `LS`, and the output block, at anything,
    with the pieces `L`. -/
noncomputable def runLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 : Vec F S1024x256 .bf16) (x1 : Vec F S512x256 .bf16) (xs : Vec F S1024x1 .f32) :
    Σ' (L : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc0__nce_row_sum_kernel i arg2 harg2 arg3 harg3 arg4 harg4 arg5 harg5) K } := by
  refine ⟨?_, ?_, fun E K => ?run⟩
  case run =>
    simp only [cc0__nce_row_sum_kernel_eq_skeleton]; unfold cc0__nce_row_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.KI.Body.lean ====
/-
  From the three runs to the pipeline's proof data.

  What each case leaves in the accumulator (and the last case in the output block) is its pieces read back;
  the accumulator after point `n` is then defined by recursion on the point — restarted at a first column
  block, carried from the point before otherwise —, and the region's invariant names it. The two input
  windows read ONE array (the normalised matrix, once by row block and once by column block), so the proof
  data hold it at two half shares.
-/
import proofs.«141833_j2508260901226_1_alg».proof.Proof.KI.Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## What each case leaves -/

theorem cover_first (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 : Vec F S1024x256 .bf16) (x1 : Vec F S512x256 .bf16) (y : S1024x1.Idx) :
    ∃ pc ∈ (runFirst (F := F) c i arg2 harg2 arg3 harg3 arg4 harg4 arg5 harg5 hc0 hc1 x0 x1).1, y ∈ pc.1.set :=
  View.cover_of_tiledL (runFirst (F := F) c i arg2 harg2 arg3 harg3 arg4 harg4 arg5 harg5 hc0 hc1 x0 x1).1 S1024x1.size (by sl_kernel_rfl) y

/-- The accumulator after a first column block. -/
def accFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 : Vec F S1024x256 .bf16) (x1 : Vec F S512x256 .bf16) : Vec F S1024x1 .f32 :=
  VAcc.read (Elt F) (VAcc.writes (Elt F) VAcc.junk (runFirst (F := F) c i arg2 harg2 arg3 harg3 arg4 harg4 arg5 harg5 hc0 hc1 x0 x1).1)

theorem cover_mid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 : Vec F S1024x256 .bf16) (x1 : Vec F S512x256 .bf16) (xs : Vec F S1024x1 .f32) (y : S1024x1.Idx) :
    ∃ pc ∈ (runMid (F := F) c i arg2 harg2 arg3 harg3 arg4 harg4 arg5 harg5 hc0 hc1 x0 x1 xs).1, y ∈ pc.1.set :=
  View.cover_of_tiledL (runMid (F := F) c i arg2 harg2 arg3 harg3 arg4 harg4 arg5 harg5 hc0 hc1 x0 x1 xs).1 S1024x1.size (by sl_kernel_rfl) y

/-- The accumulator after a middle column block, from what the point before left. -/
def accMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 : Vec F S1024x256 .bf16) (x1 : Vec F S512x256 .bf16) (xs : Vec F S1024x1 .f32) : Vec F S1024x1 .f32 :=
  VAcc.read (Elt F) (VAcc.writes (Elt F) VAcc.junk (runMid (F := F) c i arg2 harg2 arg3 harg3 arg4 harg4 arg5 harg5 hc0 hc1 x0 x1 xs).1)

theorem cover_last_out (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) (y : S1024x1.Idx) :
    ∃ pc ∈ (runLast (F := F) c i arg2 harg2 arg3 harg3 arg4 harg4 arg5 harg5 hc0 hc1 x0 x1 xs).1, y ∈ pc.1.set :=
  View.cover_of_tiledL (runLast (F := F) c i arg2 harg2 arg3 harg3 arg4 harg4 arg5 harg5 hc0 hc1 x0 x1 xs).1 S1024x1.size (by sl_kernel_rfl) y

/-- The output block after the last column block. -/
def outLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) : Vec F S1024x1 .f32 :=
  VOut.read (Elt F) (VOut.writes (Elt F) VOut.junk (runLast (F := F) c i arg2 harg2 arg3 harg3 arg4 harg4 arg5 harg5 hc0 hc1 x0 x1 xs).1)

theorem cover_last_acc (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) (y : S1024x1.Idx) :
    ∃ pc ∈ (runLast (F := F) c i arg2 harg2 arg3 harg3 arg4 harg4 arg5 harg5 hc0 hc1 x0 x1 xs).2.1, y ∈ pc.1.set :=
  View.cover_of_tiledL (runLast (F := F) c i arg2 harg2 arg3 harg3 arg4 harg4 arg5 harg5 hc0 hc1 x0 x1 xs).2.1 S1024x1.size (by sl_kernel_rfl) y

/-- The accumulator after the last column block. -/
def accLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) : Vec F S1024x1 .f32 :=
  VAcc.read (Elt F) (VAcc.writes (Elt F) VAcc.junk (runLast (F := F) c i arg2 harg2 arg3 harg3 arg4 harg4 arg5 harg5 hc0 hc1 x0 x1 xs).2.1)

/-- A stand-in for the output block's contents at a point that does not store into it: nothing reads it. -/
def noOut : Vec F S1024x1 .f32 := VOut.read (Elt F) (VOut.writes (Elt F) VOut.junk [])

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_q_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- After point `n`: the output block's staging buffer and the accumulator. -/
def outsAt (c : Dev nD) : (n : ℕ) → n < cfg0.N → Vec F S1024x1 .f32 × Vec F S1024x1 .f32
  | 0, hn => (noOut, accFirst c (grid0.coords ⟨0, hn⟩) (mq ⟨0, hn⟩) (hmq ⟨0, hn⟩) (mk ⟨0, hn⟩) (hmk ⟨0, hn⟩) (mo ⟨0, hn⟩) (hmo ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 16 = 0 then
      (noOut, accFirst c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩))
    else if h1 : (n + 1) % 16 = 15 then
      (outLast c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2,
       accLast c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
    else
      (noOut, accMid c (grid0.coords ⟨n + 1, hn⟩) (mq ⟨n + 1, hn⟩) (hmq ⟨n + 1, hn⟩) (mk ⟨n + 1, hn⟩) (hmk ⟨n + 1, hn⟩) (mo ⟨n + 1, hn⟩) (hmo ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg0.N) (h0 : t.val % 16 = 0) (hl : ¬isLast (grid0.coords t)) :
    outsAt V c t.val t.isLt = (noOut, accFirst c (grid0.coords t) (mq t) (hmq t) (mk t) (hmk t) (mo t) (hmo t) accM (Memref.isWhole_whole _) ((isFirst_iff t).mpr h0) hl (iblk V c 0 t) (iblk V c 1 t)) := by
  obtain ⟨n, hn⟩ := t
  cases n with
  | zero => exact rfl
  | succ n => exact (dif_pos h0).trans rfl

theorem outsAt_last (c : Dev nD) (t : Fin cfg0.N) (h0 : ¬t.val % 16 = 0) (h1 : t.val % 16 = 15) :
    outsAt V c t.val t.isLt = (outLast c (grid0.coords t) (mq t) (hmq t) (mk t) (hmk t) (mo t) (hmo t) accM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2,
      accLast c (grid0.coords t) (mq t) (hmq t) (mk t) (hmk t) (mo t) (hmo t) accM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt_mid (c : Dev nD) (t : Fin cfg0.N) (h0 : ¬t.val % 16 = 0) (h1 : ¬t.val % 16 = 15) :
    outsAt V c t.val t.isLt = (noOut, accMid c (grid0.coords t) (mq t) (hmq t) (mk t) (hmk t) (mo t) (hmo t) accM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: at the start what the launch hands over (the accumulator at anything); afterwards
    the accumulator at what the point before left, and the generator register. -/
def PhiS (c : Dev nD) : (n : ℕ) → n ≤ cfg0.N → sProp 𝕄
  | 0, _ => Pipeline.ΦA spec0 c
  | n + 1, hn => iprop(iprop(owns (c : Thread nD τ) accM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2)) ∗ (∃ r, prngReg c r)) := by
  cases n with
  | zero => exact absurd rfl hz
  | succ n => rfl

/-! ## The proof data -/

/-- The pipeline's proof data on core `c`: the arrays as the region finds them; each input's buffer at its block; the output's
    at `outsAt`; the invariant `PhiS`; the shared input array at two half shares; nothing owed. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_q (c : Dev nD) (t : Fin cfg0.N) : (dat V c).after 0 t = iblk V c 0 t := by dsimp only [dat]
theorem after_k (c : Dev nD) (t : Fin cfg0.N) : (dat V c).after 1 t = iblk V c 1 t := by dsimp only [dat]
theorem after_o (c : Dev nD) (t : Fin cfg0.N) : (dat V c).after 2 t = (outsAt V c t.val t.isLt).1 := by dsimp only [dat]

theorem before_q (c : Dev nD) (t : Fin cfg0.N) (d) : (dat V c).before 0 t d = iblk V c 0 t :=
  before_q_of V (dat V c) (A_eq V c 0) (after_q V c) t d
theorem before_k (c : Dev nD) (t : Fin cfg0.N) (d) : (dat V c).before 1 t d = iblk V c 1 t :=
  before_k_of V (dat V c) (A_eq V c 1) (after_k V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's residue mod 16 says which case it is in; the invariant
    hands over the accumulator at what the point before left (at anything at a first column block) and takes it back at this
    point's contents; the output block is handed back untouched unless this is a last column block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_k]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  by_cases h0 : t.val % 16 = 0
  · have hl : ¬isLast (grid0.coords t) := fun h => by have := (isLast_iff t).mp h; omega
    rw [Dat.leavesExact_idle (dat V c) 2 t (idle_out t hl) (noFlush_out t hl)]
    rw [outsAt_first V c t h0 hl]
    unfold accFirst; (try dsimp only)
    by_cases hz : t.val = 0
    · rw [PhiS_castSucc V c t, PhiS_zero V c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (mo t) fullShare ((dat V c).after 2 t) from by
        unfold Dat.leavesExact; rw [live_out t ((isLast_iff t).mpr h1)], after_o]
      rw [outsAt_last V c t h0 h1]
      unfold outLast accLast; (try dsimp only)
      rw [PhiS_castSucc V c t, PhiS_pos V c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬isLast (grid0.coords t) := fun h => h1 ((isLast_iff t).mp h)
      rw [Dat.leavesExact_idle (dat V c) 2 t (idle_out t hl) (noFlush_out t hl)]
      rw [outsAt_mid V c t h0 h1]
      unfold accMid; (try dsimp only)
      rw [PhiS_castSucc V c t, PhiS_pos V c _ _ hz]
      iintro ⟨⟨HS, Hg⟩, Ho, ⟨%d0, H0⟩, ⟨%d1, H1⟩, ⟨%d2, H2⟩⟩
      iapply ((runMid c (grid0.coords t) _ _ _ _ _ _ _ _ (fun h => h0 ((isFirst_iff t).mp h)) hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the same back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨HS, Hg⟩
  isplitl [HS]
  · iexists _; iexact HS
  iexact Hg

end Region

end Cert.KernelIdeal.Frm

end
-- ==== Proof.KI.Launch.lean ====
/-
  The region's entry and exit: the two buffers the windows stage, split out of a core's unscoped buffers.

  The two input windows read ONE buffer, the normalised matrix: at the region's entry its full share is split into two
  half shares, one per window, and at the exit the halves are joined again (an input array is never written, so both
  still hold the entry contents). The third window's buffer, the row sums, leaves at what the write-backs made of it.
  Everything is stated for ANY valuation `W` of the core's buffers, so that no host operation is ever unfolded here.
-/
import proofs.«141833_j2508260901226_1_alg».proof.Proof.KI.Body

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Split
variable (V : (c : Dev nD) → (b : Ref sig .tc) → Buf (Elt F) ((c : Thread nD τ).loc b))

def arrS : Finset (DevRef τ sig) := {Proc.devRef .tc main_v5, Proc.devRef .tc main_v6}
theorem arrS_sub : (arrS : Finset (DevRef τ sig)) ⊆ Pipeline.ucRefs τ sig := by decide

theorem held_arrS (c : Dev nD) (W : Valuation τ sig (Elt F)) :
    (StableHlo.held (c : Thread nD τ) arrS W : sProp 𝕄)
      = iprop(((((c : Thread nD τ)).1, Proc.devRef .tc main_v5) ↦{fullShare} W (Proc.devRef .tc main_v5))
          ∗ ((((c : Thread nD τ)).1, Proc.devRef .tc main_v6) ↦{fullShare} W (Proc.devRef .tc main_v6))) := by
  unfold StableHlo.held arrS
  rw [BI.bigSep_eq_bigSepL_of_eq [Proc.devRef .tc main_v5, Proc.devRef .tc main_v6] (by decide) (by decide)]; rfl

/-- The proof data's arrays, window by window: the matrix at a half share twice, the row sums at the full share. -/
theorem arrays_open (c : Dev nD) (f0 f1 : Buf (Elt F) ((((c : Thread nD τ)).1, Proc.devRef .tc main_v5))) (f2 : Buf (Elt F) ((((c : Thread nD τ)).1, Proc.devRef .tc main_v6))) :
    (dat V c).arrays (fun w => match w with | ⟨0, _⟩ => f0 | ⟨1, _⟩ => f1 | ⟨2, _⟩ => f2)
      = iprop(((((c : Thread nD τ)).1, Proc.devRef .tc main_v5) ↦{fullShare.left} f0)
          ∗ ((((c : Thread nD τ)).1, Proc.devRef .tc main_v5) ↦{fullShare.right} f1)
          ∗ ((((c : Thread nD τ)).1, Proc.devRef .tc main_v6) ↦{fullShare} f2)) := by
  unfold Dat.arrays; rw [bigSep_W0]
  rw [(arr_whole0 0).set_eq_univ, (arr_whole0 2).set_eq_univ]
  rfl

/-- The entry contents of the three windows' arrays, read off any valuation that the region-entry contents are. -/
theorem arrAt0_eq (c : Dev nD) (W : Valuation τ sig (Elt F)) (hW : ∀ b : Ref sig .tc, V c b = W (Proc.devRef .tc b)) :
    (fun w => (dat V c).arrAt w 0)
      = (fun w => match w with | ⟨0, _⟩ => W (Proc.devRef .tc main_v5) | ⟨1, _⟩ => W (Proc.devRef .tc main_v5) | ⟨2, _⟩ => W (Proc.devRef .tc main_v6)) := by
  funext w
  match w with
  | ⟨0, _⟩ => exact (A_eq V c 0).trans (hW _)
  | ⟨1, _⟩ => exact (A_eq V c 1).trans (hW _)
  | ⟨2, _⟩ => exact (A_eq V c 2).trans (hW _)

/-- The final contents: the input array's as entered (an input is never written), the row sums' at what the write-backs leave. -/
theorem arrAtN_eq (c : Dev nD) (W : Valuation τ sig (Elt F)) (hW : ∀ b : Ref sig .tc, V c b = W (Proc.devRef .tc b)) :
    (fun w => (dat V c).arrAt w cfg0.N)
      = (fun w => match w with | ⟨0, _⟩ => W (Proc.devRef .tc main_v5) | ⟨1, _⟩ => W (Proc.devRef .tc main_v5) | ⟨2, _⟩ => (dat V c).arrAt 2 cfg0.N) := by
  funext w
  match w with
  | ⟨0, _⟩ => exact ((dat V c).arrAt_in 0 rfl _).trans ((A_eq V c 0).trans (hW _))
  | ⟨1, _⟩ => exact ((dat V c).arrAt_in 1 rfl _).trans ((A_eq V c 1).trans (hW _))
  | ⟨2, _⟩ => rfl

/-- ENTRY: a core's unscoped buffers at the entry contents are the proof data's arrays — the matrix at its two half shares — and the rest. -/
theorem entry_split (c : Dev nD) (W : Valuation τ sig (Elt F)) (hW : ∀ b : Ref sig .tc, V c b = W (Proc.devRef .tc b)) :
    (StableHlo.held (c : Thread nD τ) (Pipeline.ucRefs τ sig) W : sProp 𝕄)
      ⊢ iprop((dat V c).arrays ((dat V c).arrAt · 0) ∗ StableHlo.held (c : Thread nD τ) (Pipeline.ucRefs τ sig \ arrS) W) := by
  rw [StableHlo.held_sub_split _ arrS_sub, held_arrS, arrAt0_eq V c W hW, arrays_open]
  iintro ⟨⟨H5, H6⟩, Hr⟩
  ihave H5' := (pointsTo_share (PosShare.mem_left_op_right fullShare)).1 $$ H5
  icases H5' with ⟨Hl, Hrr⟩
  isplitr [Hr]; swap; · iexact Hr
  isplitl [Hl]; · iexact Hl
  isplitl [Hrr]; · iexact Hrr
  iexact H6

/-- EXIT: the arrays at their final contents and the rest make the unscoped buffers again, the row sums' buffer updated. -/
theorem exit_join (c : Dev nD) (W : Valuation τ sig (Elt F)) (hW : ∀ b : Ref sig .tc, V c b = W (Proc.devRef .tc b)) :
    iprop((dat V c).arrays ((dat V c).arrAt · cfg0.N) ∗ StableHlo.held (c : Thread nD τ) (Pipeline.ucRefs τ sig \ arrS) W)
      ⊢ (StableHlo.held (c : Thread nD τ) (Pipeline.ucRefs τ sig) (Function.update W (Proc.devRef .tc main_v6) ((dat V c).arrAt 2 cfg0.N)) : sProp 𝕄) := by
  rw [StableHlo.held_sub_split _ arrS_sub (Function.update W (Proc.devRef .tc main_v6) ((dat V c).arrAt 2 cfg0.N)), held_arrS, arrAtN_eq V c W hW, arrays_open]
  rw [show StableHlo.held (c : Thread nD τ) (Pipeline.ucRefs τ sig \ arrS) (Function.update W (Proc.devRef .tc main_v6) ((dat V c).arrAt 2 cfg0.N))
        = (StableHlo.held (c : Thread nD τ) (Pipeline.ucRefs τ sig \ arrS) W : sProp 𝕄) from by
      unfold StableHlo.held
      exact BI.bigSep_congr fun b hb => by
        have hne : b ≠ Proc.devRef .tc main_v6 := fun h => (Finset.mem_sdiff.mp hb).2 (by
          rw [h]; unfold arrS; exact Finset.mem_insert_of_mem (Finset.mem_singleton_self _))
        rw [Function.update_of_ne hne]]
  rw [Function.update_self, Function.update_of_ne (by decide : (Proc.devRef .tc main_v5 : DevRef τ sig) ≠ Proc.devRef .tc main_v6)]
  iintro ⟨⟨Hl, Hrr, H6⟩, Hr⟩
  isplitr [Hr]; swap; · iexact Hr
  isplitl [Hl Hrr]
  · iapply (pointsTo_share (PosShare.mem_left_op_right fullShare)).2
    isplitl [Hl]; · iexact Hl
    iexact Hrr
  iexact H6

end Split

end Cert.KernelIdeal.Frm

end
-- ==== Proof.KI.Run.lean ====
/-
  The whole program's run: host operations, the kernel region, host operations.

  The buffer contents at each boundary are a fold from the launch memory: the two stretches of host operations
  before the region (the row norms, then the normalised matrix), the region (which changes the row-sum array only),
  the stretch after it (the logarithms and their mean). Every weakly fair execution terminates; the final memory holds
  the fold's last contents at the result and the argument as launched.
-/
import proofs.«141833_j2508260901226_1_alg».proof.Proof.KI.Launch

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the row norms. -/
def W1 (c : Dev nD) : Valuation τ sig (Elt F) := StableHlo.after hostOps0 (W0 m ρ c)
/-- After the normalisation: the region's entry. -/
def W2 (c : Dev nD) : Valuation τ sig (Elt F) := StableHlo.after hostOps0_1 (W1 m ρ c)
abbrev V2 : (c : Dev nD) → (b : Ref sig .tc) → Buf (Elt F) ((c : Thread nD τ).loc b) := fun c b => W2 m ρ c b
/-- At the region's exit: the row-sum array at what the write-backs leave, everything else as entered. -/
def W3 (c : Dev nD) : Valuation τ sig (Elt F) :=
  Function.update (W2 m ρ c) (Proc.devRef .tc main_v6) ((dat (V2 m ρ) c).arrAt 2 cfg0.N)
/-- After the last stretch. -/
def W4 (c : Dev nD) : Valuation τ sig (Elt F) := StableHlo.after hostOps1 (W3 m ρ c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (Pipeline.UD sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The kernel region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := StableHlo.held (c : Thread nD τ) (Pipeline.ucRefs τ sig \ arrS) (W2 m ρ c)
  hentry c := by
    rw [Pipeline.ownSems0_none]
    have hsplit := entry_split (V2 m ρ) c (W2 m ρ c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V2 m ρ) c)
    unfold Pipeline.ΦA
    iintro ⟨Hp, -, Hr⟩
    isplitl [Hr]; · iexact Hr
    iexact Hp
  hout c := by
    rw [Pipeline.ownSems0_none]
    refine BIBase.Entails.trans (hout (V2 m ρ) c) ?_
    unfold Pipeline.ΦA
    iintro ⟨Hr, Hp⟩
    isplitl [Hp]; · iexact Hp
    isplitr; · iempintro
    iexact Hr
  hexit c := by
    have hjoin := exit_join (V2 m ρ) c (W2 m ρ c) (fun _ => rfl)
    iintro ⟨Ha, HO, HY, Hrest⟩
    imodintro
    isplitl [Ha Hrest]
    · unfold W3; iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, and every final state agrees with the last boundary's
    contents on every unscoped buffer. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Frm

end
-- ==== Proof.KI.Frame.lean ====
/-
  The frame: the program terminates, nothing faults, and the argument array ends as launched — no host operation
  writes it, and the region only reads the normalised matrix and writes the row sums.
-/
import proofs.«141833_j2508260901226_1_alg».proof.Proof.KI.Run
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No operation of the two stretches before the region writes the argument, -/
theorem arg_before (W : Valuation τ sig (Elt F)) :
    StableHlo.after hostOps0_1 (StableHlo.after hostOps0 W) (Proc.devRef .tc main_arg0) = W (Proc.devRef .tc main_arg0) := by
  after_results_simp <;> rfl

/-- nor any operation after it. -/
theorem arg_behind (W : Valuation τ sig (Elt F)) :
    StableHlo.after hostOps1 W (Proc.devRef .tc main_arg0) = W (Proc.devRef .tc main_arg0) := by
  after_results_simp <;> rfl

/-- The argument at the last boundary is the launch memory's. -/
theorem W4_arg (c : Dev nD) : W4 m ρ c (Proc.devRef .tc main_arg0) = m ((c : Thread nD τ).loc main_arg0) := by
  unfold W4; rw [arg_behind]
  unfold W3; rw [Function.update_of_ne (by decide : (Proc.devRef .tc main_arg0 : DevRef τ sig) ≠ Proc.devRef .tc main_v6)]
  unfold W2 W1; rw [arg_before]

/-- The run with the result buffer named: it ends at the fold's last contents. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)) :=
  (θ_run defs _ _).mono (fun _ h c => ⟨h c _ (mem_uc main_v13 (by decide)),
    (h c _ (mem_uc main_arg0 (by decide))).trans (W4_arg m ρ c)⟩) (run_main m ρ)

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_result m ρ)

end Cert.KernelIdeal.Frm

end
-- ==== Proof.Spec.lean ====
/-
  The contrastive row-sum loss, as one function of the normalised matrix, over the extended reals.

  For a matrix `xn` of 8192 rows of 256 entries: the similarity of rows `r` and `c` is their inner
  product; every off-diagonal pair contributes `exp (sim / τ)`, the diagonal contributes nothing; a row's
  sum runs over all 8192 columns; the loss is the mean over rows of `log (rowsum / 8191 + ε)`.
  The float literals stay as their binary words: both programs carry the same words, so none is evaluated
  except the zero word.
-/
import Idealize.ShloMosaic.PureOps.Ideal
import Idealize.ShloMosaic.PureOps.Ideal.Laws
import Idealize.ShloMosaic.Lib.ValueIdx

noncomputable section

namespace Cert.Nce

open Idealize.ShloMosaic

/-- The temperature, the word of `0.1f`. -/
def tau : EReal := Ideal.ofBits .f32 0x3DCCCCCD#32
/-- `8191.0f`, `1e-8f`, `8192.0f`. -/
def nm1 : EReal := Ideal.ofBits .f32 0x45FFF800#32
def eps : EReal := Ideal.ofBits .f32 0x322BCC77#32
def nn : EReal := Ideal.ofBits .f32 0x46000000#32

/-- The inner product of rows `r` and `c`. -/
def sim (xn : Fin 8192 → Fin 256 → EReal) (r c : Fin 8192) : EReal := ∑ k : Fin 256, xn r k * xn c k

/-- What the pair `(r, c)` contributes to row `r`'s sum: nothing on the diagonal, `exp (sim / τ)` off it. -/
def pairTerm (xn : Fin 8192 → Fin 256 → EReal) (r c : Fin 8192) : EReal :=
  if r.val = c.val then 0 else Ideal.exp (Ideal.div (sim xn r c) tau)

/-- Row `r`'s sum over all columns. -/
def rowSum (xn : Fin 8192 → Fin 256 → EReal) (r : Fin 8192) : EReal := ∑ c : Fin 8192, pairTerm xn r c

/-- The part of row `a * 1024 + p`'s sum that lies in the column block `b` (512 columns from `b * 512`),
    from the row block's rows `x0` and the column block's rows `x1`. -/
def blockSum (a b : Nat) (x0 : Fin 1024 → Fin 256 → EReal) (x1 : Fin 512 → Fin 256 → EReal) (p : Fin 1024) : EReal :=
  ∑ q : Fin 512, if a * 1024 + p.val = b * 512 + q.val then 0
    else Ideal.exp (Ideal.div (∑ k : Fin 256, x0 p k * x1 q k) tau)

/-- The 1024 rows of row block `a`, and the 512 rows of column block `b`. -/
def rowBlock (xn : Fin 8192 → Fin 256 → EReal) (a : Nat) (ha : a < 8) : Fin 1024 → Fin 256 → EReal :=
  fun p k => xn ⟨a * 1024 + p.val, by omega⟩ k
def colBlock (xn : Fin 8192 → Fin 256 → EReal) (b : Nat) (hb : b < 16) : Fin 512 → Fin 256 → EReal :=
  fun q k => xn ⟨b * 512 + q.val, by omega⟩ k

/-- The mean over rows of `log (rowsum / 8191 + ε)`. -/
def loss (rs : Fin 8192 → EReal) : EReal :=
  Ideal.div (∑ r : Fin 8192, Ideal.log (Ideal.div (rs r) nm1 + eps)) nn

end Cert.Nce

end
-- ==== Proof.KI.Blocks.lean ====
/-
  Where the grid's points are, and what the two input windows read there.

  The 128 points run over 8 row blocks and 16 column blocks, the column block moving fastest: point t
  is row block t / 16 and column block t % 16. The first window's block there is rows
  t / 16 * 1024 onwards of the normalised matrix, the second window's rows t % 16 * 512 onwards.
-/
import proofs.«141833_j2508260901226_1_alg».proof.Proof.KI.Body
import proofs.«141833_j2508260901226_1_alg».proof.Proof.Spec
import Idealize.ShloMosaic.Lib.ValueIdx
import Idealize.ShloMosaic.Lib.Pipeline.Value

set_option maxRecDepth 16384

noncomputable section

namespace Cert.KernelIdeal.Frm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The grid's points and the windows' block indices -/

/-- Point t of the grid has row block t / 16 and column block t % 16. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The row-block window and the output window sit at block (t / 16, 0), the column-block window at (t % 16, 0). -/
theorem index_val : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0)

section Region
variable (V : (c : Dev nD) → (b : Ref sig .tc) → Buf (Elt Idealize.ShloMosaic.Ideal) ((c : Thread nD τ).loc b))

/-- The matrix both input windows read, as 8192 rows of 256 entries. -/
def xnOf (c : Dev nD) : Fin 8192 → Fin 256 → EReal :=
  fun r k => (V c main_v5 : S8192x256.Idx → EReal) (ix2 r k)

/-- Entry (a, k) of the row-block window's block at point t is entry (t / 16 * 1024 + a, k) of the matrix. -/
theorem iblk_q_apply (c : Dev nD) (t : Fin cfg0.N) (a : Fin 1024) (k : Fin 256) (r : Fin 8192)
    (hr : r.val = t.val / 16 * 1024 + a.val) :
    (iblk V c 0 t : Vec Idealize.ShloMosaic.Ideal S1024x256 .bf16) (ix2 a k) = xnOf V c r k := by
  obtain ⟨e0, e1, -⟩ := index_val t
  unfold iblk xnOf
  rw [View.read_apply]
  show (V c main_v5 : S8192x256.Idx → EReal) _ = _
  congr 1
  funext b
  apply Fin.ext
  match b with
  | ⟨0, _⟩ => show win0_0.index t 0 * 1024 + 1 * a.val = r.val; rw [e0, hr]; omega
  | ⟨1, _⟩ => show win0_0.index t 1 * 256 + 1 * k.val = k.val; rw [e1]; omega

/-- Entry (b, k) of the column-block window's block at point t is entry (t % 16 * 512 + b, k) of the matrix. -/
theorem iblk_k_apply (c : Dev nD) (t : Fin cfg0.N) (b : Fin 512) (k : Fin 256) (r : Fin 8192)
    (hr : r.val = t.val % 16 * 512 + b.val) :
    (iblk V c 1 t : Vec Idealize.ShloMosaic.Ideal S512x256 .bf16) (ix2 b k) = xnOf V c r k := by
  obtain ⟨-, -, e0, e1, -⟩ := index_val t
  unfold iblk xnOf
  rw [View.read_apply]
  show (V c main_v5 : S8192x256.Idx → EReal) _ = _
  congr 1
  funext d
  apply Fin.ext
  match d with
  | ⟨0, _⟩ => show win0_1.index t 0 * 512 + 1 * b.val = r.val; rw [e0, hr]; omega
  | ⟨1, _⟩ => show win0_1.index t 1 * 256 + 1 * k.val = k.val; rw [e1]; omega

end Region

end Cert.KernelIdeal.Frm

end
-- ==== Proof.KI.Pieces.lean ====
/-
  What the three control cases leave, as the body's stored values.

  In every case the accumulator is covered by ONE last store through its whole rectangle, so what is read
  back from it is that store's value; the value's loads are through whole rectangles too, so they read the
  buffers' contents. In the first case the accumulator was zeroed just before and the value reads the zero
  splat back; in the last case the output block is one store of the accumulator read back. So each case
  leaves the second stored value of the body over the two input blocks and the accumulator's contents
  before it (the zero splat at a first column block).
-/
import proofs.«141833_j2508260901226_1_alg».proof.Proof.KI.Body
import Idealize.ShloMosaic.Lib.Pipeline.Value
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Every load and store of the body is through the whole rectangle: its offsets are zero. -/
theorem pieces_hz : (![0, 0] : Fin 2 → Nat) = fun _ => 0 := funext fun a => by fin_cases a <;> rfl

/-- A middle column block leaves, in the accumulator holding `xs`, the second stored value of the body
    over the two input blocks and `xs`: its one store covers the accumulator, and its three loads read
    whole buffers. -/
theorem accMid_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 : Vec F S1024x256 .bf16) (x1 : Vec F S512x256 .bf16) (xs : Vec F S1024x1 .f32) :
    accMid (F := F) c i arg2 harg2 arg3 harg3 arg4 harg4 arg5 harg5 hc0 hc1 x0 x1 xs = k0_pay2 i x0 x1 xs := by
  unfold accMid
  rw [View.read_writes_eq_canon _ _ _ (cover_mid c i arg2 harg2 arg3 harg3 arg4 harg4 arg5 harg5 hc0 hc1 x0 x1 xs)]
  unfold runMid
  dsimp only
  rw [View.canon_unit_zero pieces_hz]
  simp only [View.readAt_eq_ld, harg2.read_unread, harg3.read_unread, harg5.read_unread,
    View.ld_unit_zero (S := S1024x256) pieces_hz, View.ld_unit_zero (S := S512x256) pieces_hz, View.ld_unit_zero (S := S1024x1) pieces_hz]

/-- A first column block stores the zero splat, reads it back, and stores over it the second stored
    value computed from that read-back: the accumulator ends at the second stored value over the zero splat. -/
theorem accFirst_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 : Vec F S1024x256 .bf16) (x1 : Vec F S512x256 .bf16) :
    accFirst (F := F) c i arg2 harg2 arg3 harg3 arg4 harg4 arg5 harg5 hc0 hc1 x0 x1 = k0_pay2 i x0 x1 (k0_pay1 (F := F)) := by
  unfold accFirst
  rw [View.read_writes_eq_canon _ _ _ (cover_first c i arg2 harg2 arg3 harg3 arg4 harg4 arg5 harg5 hc0 hc1 x0 x1)]
  unfold runFirst
  dsimp only
  sl_unfold_words
  rw [View.canon_cons_unit_zero (S := S1024x1) pieces_hz, View.readCov_unit_zero (S := S1024x1) _ pieces_hz]
  simp only [View.readAt_eq_ld, harg2.read_unread, harg3.read_unread,
    View.ld_unit_zero (S := S1024x256) pieces_hz, View.ld_unit_zero (S := S512x256) pieces_hz]

/-- The last column block leaves the accumulator as a middle one does. -/
theorem accLast_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) :
    accLast (F := F) c i arg2 harg2 arg3 harg3 arg4 harg4 arg5 harg5 hc0 hc1 x0 x1 xs = k0_pay2 i x0 x1 xs := by
  unfold accLast
  rw [View.read_writes_eq_canon _ _ _ (cover_last_acc c i arg2 harg2 arg3 harg3 arg4 harg4 arg5 harg5 hc0 hc1 x0 x1 xs)]
  unfold runLast
  dsimp only
  sl_unfold_words
  rw [View.canon_unit_zero (S := S1024x1) pieces_hz]
  simp only [View.readAt_eq_ld, harg2.read_unread, harg3.read_unread, harg5.read_unread,
    View.ld_unit_zero (S := S1024x256) pieces_hz, View.ld_unit_zero (S := S512x256) pieces_hz, View.ld_unit_zero (S := S1024x1) pieces_hz]

/-- The last column block then copies the accumulator into the output block: the output block ends at the
    same value, read back from the accumulator's one covering store. -/
theorem outLast_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 : Vec F S1024x256 .bf16) (x1 : Vec F S512x256 .bf16) (xs : Vec F S1024x1 .f32) :
    outLast (F := F) c i arg2 harg2 arg3 harg3 arg4 harg4 arg5 harg5 hc0 hc1 x0 x1 xs = k0_pay2 i x0 x1 xs := by
  unfold outLast
  rw [View.read_writes_eq_canon _ _ _ (cover_last_out c i arg2 harg2 arg3 harg3 arg4 harg4 arg5 harg5 hc0 hc1 x0 x1 xs)]
  unfold runLast
  dsimp only
  sl_unfold_words
  rw [View.canon_unit_zero (S := S1024x1) pieces_hz, View.readCov_unit_zero (S := S1024x1) _ pieces_hz]
  simp only [View.readAt_eq_ld, harg2.read_unread, harg3.read_unread, harg5.read_unread,
    View.ld_unit_zero (S := S1024x256) pieces_hz, View.ld_unit_zero (S := S512x256) pieces_hz, View.ld_unit_zero (S := S1024x1) pieces_hz]

end Cert.KernelIdeal.Frm

end
-- ==== Proof.PayValue.lean ====
/-
  The kernel body's two stored values, read at an index.

  The first is a zero splat. The second is the accumulator plus, for each of the block's 1024 rows, the sum
  over the block's 512 columns of: nothing where the global row number equals the global column number,
  and the exponential of (row · column / τ) elsewhere; the products are the inner products of the row
  block's rows with the column block's rows. That is the accumulator plus the block's part of the row sum.
-/
import proofs.«141833_j2508260901226_1_alg».proof.Proof.Gen.KernelIdeal.Skeleton
import proofs.«141833_j2508260901226_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-! ## The mask: equality of 32-bit words is equality of the global row and column numbers -/

/-- Below 2^32 nothing wraps: the two 32-bit words are equal exactly when the naturals are. -/
theorem word_eq_iff (a b p q : Nat) (ha : a < 8) (hb : b < 16) (hp : p < 1024) (hq : q < 512) :
    (BitVec.ofNat 32 a * 1024#32 + BitVec.ofNat 32 p = BitVec.ofNat 32 b * 512#32 + BitVec.ofNat 32 q)
      ↔ a * 1024 + p = b * 512 + q := by
  rw [← BitVec.toNat_inj]
  simp only [BitVec.toNat_add, BitVec.toNat_mul, BitVec.toNat_ofNat]
  omega

/-- A one-bit comparison result is set exactly when the words are equal. -/
theorem cmpi_eq_one_iff (x y : BitVec 32) : IntOp.cmpi .eq x y = 1#1 ↔ x = y := by
  unfold IntOp.cmpi
  by_cases h : x = y
  · subst h; simp
  · have hb : (x == y) = false := beq_eq_false_iff_ne.2 h
    simp [hb, h]

/-! ## The layout operations at an index -/

section Layout
variable {α : Type}

/-- A vector of length `a` viewed as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum -/

/-- The sum along the 512 columns, read at row `p`. -/
theorem lane_sum (src : FVec Ideal S1024x512 .f32) (h : S1024x512.Reduces [1] S1024) (hφ : FKind.Formats .f32)
    (hacc : (0x00000000#32 : BitVec 32) = 0x00000000#32) (p : Fin 1024) :
    multiReduction .add [1] S1024 src 0x00000000#32 h hφ hacc (ix1 p) = ∑ q : Fin 512, src (ix2 p q) := by
  refine (Ideal.multiReduction_add_single src 0x00000000#32 h hφ hacc (ix1 p)).trans ?_
  show ∑ q : Fin 512, src (h.lift (ix1 p) q) = ∑ q : Fin 512, src (ix2 p q)
  refine Finset.sum_congr rfl fun q _ => congrArg src (funext fun a => ?_)
  match a with
  | ⟨0, _⟩ => exact Fin.ext rfl
  | ⟨1, _⟩ => exact Fin.ext rfl

/-! ## The product of the row block with the transposed column block -/

theorem lhs_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem lhs_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- The product into a zero accumulator, read at `(p, q)`: the sum over the 256 shared coordinates. -/
theorem matmul_apply_ix (l : FVec Ideal S1024x256 .bf16) (r : FVec Ideal S256x512 .bf16) (p : Fin 1024) (q : Fin 512) :
    matmul dot_S1024x256_S256x512_S1024x512_1_0_0_1_n_n none l r (constant (F := Ideal) S1024x512 .f32 0x00000000#32) (ix2 p q)
      = ∑ k : Fin 256, l (ix2 p k) * r (ix2 k q) := by
  simp only [matmul]
  rw [Ideal.matmul_constant_zero_apply,
    ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q)
      ((contrEquiv1 dot_S1024x256_S256x512_S1024x512_1_0_0_1_n_n 256 rfl rfl).symm k) = ix2 p k :=
    funext fun a => Fin.ext (by
      match a with
      | ⟨0, _⟩ => exact lhs_0 _ _
      | ⟨1, _⟩ => exact (lhs_1 _ _).trans hk)
  have er : dot_S1024x256_S256x512_S1024x512_1_0_0_1_n_n.rhsIdx (ix2 p q)
      ((contrEquiv1 dot_S1024x256_S256x512_S1024x512_1_0_0_1_n_n 256 rfl rfl).symm k) = ix2 k q :=
    funext fun a => Fin.ext (by
      match a with
      | ⟨0, _⟩ => exact (rhs_0 _ _).trans hk
      | ⟨1, _⟩ => exact rhs_1 _ _)
  rw [el, er]

/-! ## The global row and column numbers, and the masked term -/

/-- The global row number as the body computes it, read at `(p, q)`: the block's first row plus `p`. -/
theorem rowid_apply (a : BitVec 32) (h1 : S1024x1.Iotas .tc 32 [0]) (h2 : S1024x1.Broadcasts S1024x512)
    (p : Fin 1024) (q : Fin 512) :
    broadcastTo S1024x512 (addi (broadcast S1024x1 a) (iota .tc S1024x1 32 [0] h1)) h2 (ix2 p q)
      = a + BitVec.ofNat 32 p.val := by
  refine (broadcastTo_a1_ab_apply _ h2 p q).trans ?_
  show a + iota .tc S1024x1 32 [0] h1 (ix2 p (0 : Fin 1)) = _
  rw [iota_single_apply]

/-- The global column number as the body computes it, read at `(p, q)`: the block's first column plus `q`. -/
theorem colid_apply (b : BitVec 32) (h1 : S1x512.Iotas .tc 32 [1]) (h2 : S1x512.Broadcasts S1024x512)
    (p : Fin 1024) (q : Fin 512) :
    broadcastTo S1024x512 (addi (broadcast S1x512 b) (iota .tc S1x512 32 [1] h1)) h2 (ix2 p q)
      = b + BitVec.ofNat 32 q.val := by
  refine (broadcastTo_1b_ab_apply _ h2 p q).trans ?_
  show b + iota .tc S1x512 32 [1] h1 (ix2 (0 : Fin 1) q) = _
  rw [iota_single_apply]

/-- The selection on the comparison of the two numbers: the first value on the diagonal, the second off it. -/
theorem mask_term (a b : Nat) (ha : a < 8) (hb : b < 16) (p : Fin 1024) (q : Fin 512) (z e : EReal) :
    Scalar.select (IntOp.cmpi .eq (BitVec.ofNat 32 a * 1024#32 + BitVec.ofNat 32 p.val)
        (BitVec.ofNat 32 b * 512#32 + BitVec.ofNat 32 q.val)) z e
      = if a * 1024 + p.val = b * 512 + q.val then z else e := by
  have h := word_eq_iff a b p.val q.val ha hb p.isLt q.isLt
  unfold Scalar.select
  by_cases hd : a * 1024 + p.val = b * 512 + q.val
  · rw [if_pos hd, if_pos]
    exact (cmpi_eq_one_iff _ _).2 (h.2 hd)
  · rw [if_neg hd, if_neg]
    exact fun hc => hd (h.1 ((cmpi_eq_one_iff _ _).1 hc))

/-- The masked exponential term of the body, read at `(p, q)`, over the two global numbers' words. -/
theorem term_apply (A B : BitVec 32) (h1 : S1024x1.Iotas .tc 32 [0]) (h2 : S1024x1.Broadcasts S1024x512)
    (h3 : S1x512.Iotas .tc 32 [1]) (h4 : S1x512.Broadcasts S1024x512)
    (l : FVec Ideal S1024x256 .bf16) (r : FVec Ideal S256x512 .bf16) (p : Fin 1024) (q : Fin 512) :
    select
        (cmpi .eq (broadcastTo S1024x512 (addi (broadcast S1024x1 A) (iota .tc S1024x1 32 [0] h1)) h2)
          (broadcastTo S1024x512 (addi (broadcast S1x512 B) (iota .tc S1x512 32 [1] h3)) h4))
        (broadcast S1024x512 (FloatOps.ofBits (F := Ideal) .f32 0x00000000#32))
        (exp (divf (matmul dot_S1024x256_S256x512_S1024x512_1_0_0_1_n_n none l r
            (constant (F := Ideal) S1024x512 .f32 0x00000000#32))
          (broadcast S1024x512 (FloatOps.ofBits (F := Ideal) .f32 0x3DCCCCCD#32))))
        (ix2 p q)
      = Scalar.select (IntOp.cmpi .eq (A + BitVec.ofNat 32 p.val) (B + BitVec.ofNat 32 q.val)) 0
          (Ideal.exp (Ideal.div (∑ k : Fin 256, l (ix2 p k) * r (ix2 k q)) Cert.Nce.tau)) := by
  show Scalar.select
      (IntOp.cmpi .eq
        (broadcastTo S1024x512 (addi (broadcast S1024x1 A) (iota .tc S1024x1 32 [0] h1)) h2 (ix2 p q))
        (broadcastTo S1024x512 (addi (broadcast S1x512 B) (iota .tc S1x512 32 [1] h3)) h4 (ix2 p q)))
      (Ideal.ofBits .f32 0x00000000#32)
      (Ideal.exp (Ideal.div
        (matmul dot_S1024x256_S256x512_S1024x512_1_0_0_1_n_n none l r
          (constant (F := Ideal) S1024x512 .f32 0x00000000#32) (ix2 p q))
        Cert.Nce.tau)) = _
  rw [rowid_apply, colid_apply, matmul_apply_ix, Ideal.ofBits_zero_f32]

/-! ## The two stored values -/

/-- The first stored value is zero everywhere. -/
theorem pay1_apply (p : Fin 1024) : k0_pay1 (F := Ideal) (ix2 p (0 : Fin 1)) = 0 := by
  unfold k0_pay1
  simp only [shapeCast_self]
  exact Ideal.ofBits_zero_f32

/-- The second stored value at row `p`: the accumulator there plus the part of global row
    `(i 0) * 1024 + p`'s sum that lies in column block `i 1`. The two reshapes to the same shape are the
    identity; the sum along the columns is read term by term; each term is the selection on the comparison
    of the global row and column numbers, which below 2^32 is the comparison of the naturals; and the
    product with the transposed column block is the inner product of row `p` with column-block row `q`. -/
theorem pay2_apply (i : grid0.Coords) (x0 : Vec Ideal S1024x256 .bf16) (x1 : Vec Ideal S512x256 .bf16)
    (acc : Vec Ideal S1024x1 .f32) (p : Fin 1024) :
    k0_pay2 (F := Ideal) i x0 x1 acc (ix2 p (0 : Fin 1))
      = acc (ix2 p (0 : Fin 1))
        + Cert.Nce.blockSum (i 0).val (i 1).val (fun a k => x0 (ix2 a k)) (fun b k => x1 (ix2 b k)) p := by
  have ha : (i 0).val < 8 := (i 0).isLt
  have hb : (i 1).val < 16 := (i 1).isLt
  unfold k0_pay2
  simp only [shapeCast_self]
  show acc (ix2 p (0 : Fin 1)) + shapeCast S1024x1 _ _ (ix2 p (0 : Fin 1)) = _
  refine congrArg (acc (ix2 p (0 : Fin 1)) + ·) ?_
  refine (shapeCast_a_a1_apply _ _ p 0).trans ?_
  refine (lane_sum _ _ _ _ p).trans ?_
  unfold Cert.Nce.blockSum
  refine Finset.sum_congr rfl fun q _ => ?_
  refine (term_apply _ _ _ _ _ _ x0 _ p q).trans ?_
  refine (mask_term (i 0).val (i 1).val ha hb p q _ _).trans ?_
  refine congrArg (fun s => if (i 0).val * 1024 + p.val = (i 1).val * 512 + q.val then (0 : EReal)
    else Ideal.exp (Ideal.div s Cert.Nce.tau)) (Finset.sum_congr rfl fun k _ => ?_)
  exact congrArg (x0 (ix2 p k) * ·) (transpose_ix2_apply x1 _ k q)

end Cert.KernelIdeal.PayValue

end
-- ==== Proof.BlockAlgebra.lean ====
/-
  The block decomposition of a row's sum.

  A row's sum runs over 8192 columns. Cut the columns into 16 consecutive blocks of 512: column
  `c = b * 512 + q` with `b < 16`, `q < 512`. Then the row's sum is the sum over the blocks of the
  part that lies in each block, and that part is `blockSum` of the row block's rows and the column
  block's rows. Only commutativity and associativity of `+` on the extended reals is used: nothing
  has to be finite.
-/
import proofs.«141833_j2508260901226_1_alg».proof.Proof.Spec
import Mathlib.Algebra.BigOperators.Fin
import Mathlib.Algebra.BigOperators.Group.Finset.Basic
import Mathlib.Logic.Equiv.Fin.Basic

noncomputable section

namespace Cert.Nce

open Idealize.ShloMosaic

/-- A sum over 8192 indices, as 16 consecutive blocks of 512: index `b * 512 + q`. -/
theorem sum_fin8192_blocks (f : Fin 8192 → EReal) :
    ∑ c : Fin 8192, f c = ∑ b : Fin 16, ∑ q : Fin 512, f ⟨b.val * 512 + q.val, by omega⟩ := by
  rw [← Equiv.sum_comp (finProdFinEquiv : Fin 16 × Fin 512 ≃ Fin (16 * 512)) f, Fintype.sum_prod_type]
  refine Finset.sum_congr rfl fun b _ => Finset.sum_congr rfl fun q _ => ?_
  congr 1
  apply Fin.ext
  simp only [finProdFinEquiv_apply_val]
  omega

/-- A row's sum is the sum, over the 16 column blocks, of the part of it in each block. -/
theorem rowSum_blocks (xn : Fin 8192 → Fin 256 → EReal) (a : Nat) (ha : a < 8) (p : Fin 1024) :
    ∑ b : Fin 16, blockSum a b.val (rowBlock xn a ha) (colBlock xn b.val b.isLt) p
      = rowSum xn ⟨a * 1024 + p.val, by omega⟩ := by
  unfold rowSum
  rw [sum_fin8192_blocks]
  refine Finset.sum_congr rfl fun b _ => ?_
  unfold blockSum
  refine Finset.sum_congr rfl fun q _ => ?_
  rfl

/-- Accumulating left to right from zero over `0, …, n - 1` is the sum over the range. -/
theorem acc_blocks (f : Nat → EReal) (n : Nat) :
    (List.range n).foldl (fun s b => s + f b) 0 = ∑ b ∈ Finset.range n, f b := by
  induction n with
  | zero => simp
  | succ n ih => rw [List.range_succ, List.foldl_append, ih, Finset.sum_range_succ]; rfl

/-- The sum over the range `0, …, 15` is the sum over `Fin 16`. -/
theorem sum_range_eq_sum_fin16 (f : Nat → EReal) :
    ∑ b ∈ Finset.range 16, f b = ∑ b : Fin 16, f b.val :=
  Finset.sum_range f

end Cert.Nce

end
-- ==== Proof.KI.AccInv.lean ====
/-
  The accumulator, point by point.

  Along a row block the accumulator is restarted at the first column block and each point adds its
  column block's part of every row's sum. So after column block j it holds the parts of blocks 0 … j, and
  after the last one — when it is copied into the output block — the whole row sum.
-/
import proofs.«141833_j2508260901226_1_alg».proof.Proof.KI.Blocks
import proofs.«141833_j2508260901226_1_alg».proof.Proof.KI.Pieces
import proofs.«141833_j2508260901226_1_alg».proof.Proof.PayValue
import proofs.«141833_j2508260901226_1_alg».proof.Proof.BlockAlgebra

set_option maxRecDepth 16384

noncomputable section

namespace Cert.KernelIdeal.Frm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Region
variable (V : (c : Dev nD) → (b : Ref sig .tc) → Buf (Elt Idealize.ShloMosaic.Ideal) ((c : Thread nD τ).loc b))

/-- What column block b adds to the sum of row a * 1024 + p (nothing outside the 8 by 16 grid of blocks). -/
def blockTerm (xn : Fin 8192 → Fin 256 → EReal) (a b : ℕ) (p : Fin 1024) : EReal :=
  if h : a < 8 ∧ b < 16 then Cert.Nce.blockSum a b (Cert.Nce.rowBlock xn a h.1) (Cert.Nce.colBlock xn b h.2) p else 0

/-- The body's second stored value at point t adds, to what the accumulator held, the point's column block's part. -/
theorem pay_step (c : Dev nD) (t : Fin cfg0.N) (acc : Vec Idealize.ShloMosaic.Ideal S1024x1 .f32) (p : Fin 1024) :
    k0_pay2 (F := Idealize.ShloMosaic.Ideal) (grid0.coords t) (iblk V c 0 t) (iblk V c 1 t) acc (ix2 p (0 : Fin 1))
      = acc (ix2 p (0 : Fin 1)) + blockTerm (xnOf V c) (t.val / 16) (t.val % 16) p := by
  have hN : t.val < 128 := lt_of_lt_of_eq t.isLt (show cfg0.N = 128 from N_0)
  have ha : t.val / 16 < 8 := by omega
  have hb : t.val % 16 < 16 := by omega
  obtain ⟨e0, e1⟩ := coords_val t
  refine (PayValue.pay2_apply (grid0.coords t) (iblk V c 0 t) (iblk V c 1 t) acc p).trans ?_
  refine congrArg (acc (ix2 p (0 : Fin 1)) + ·) ?_
  unfold blockTerm
  rw [dif_pos ⟨ha, hb⟩, e0, e1]
  have hq : (fun a k => (iblk V c 0 t : Vec Idealize.ShloMosaic.Ideal S1024x256 .bf16) (ix2 a k))
      = Cert.Nce.rowBlock (xnOf V c) (t.val / 16) ha :=
    funext fun a => funext fun k => iblk_q_apply V c t a k _ rfl
  have hk : (fun b k => (iblk V c 1 t : Vec Idealize.ShloMosaic.Ideal S512x256 .bf16) (ix2 b k))
      = Cert.Nce.colBlock (xnOf V c) (t.val % 16) hb :=
    funext fun b => funext fun k => iblk_k_apply V c t b k _ rfl
  rw [hq, hk]

/-- A first column block leaves the first block's part. -/
theorem first_value (c : Dev nD) (t : Fin cfg0.N) (h0 : t.val % 16 = 0) (hc0 : isFirst (grid0.coords t))
    (hc1 : ¬isLast (grid0.coords t)) (p : Fin 1024) :
    accFirst c (grid0.coords t) (mq t) (hmq t) (mk t) (hmk t) (mo t) (hmo t) accM (Memref.isWhole_whole _)
      hc0 hc1 (iblk V c 0 t) (iblk V c 1 t) (ix2 p (0 : Fin 1)) = blockTerm (xnOf V c) (t.val / 16) 0 p := by
  rw [accFirst_eq, pay_step, PayValue.pay1_apply, zero_add, h0]

/-- A middle column block adds its part to what the accumulator held. -/
theorem mid_value (c : Dev nD) (t : Fin cfg0.N) (hc0 : ¬isFirst (grid0.coords t)) (hc1 : ¬isLast (grid0.coords t))
    (xs : Vec Idealize.ShloMosaic.Ideal S1024x1 .f32) (p : Fin 1024) :
    accMid c (grid0.coords t) (mq t) (hmq t) (mk t) (hmk t) (mo t) (hmo t) accM (Memref.isWhole_whole _)
      hc0 hc1 (iblk V c 0 t) (iblk V c 1 t) xs (ix2 p (0 : Fin 1))
      = xs (ix2 p (0 : Fin 1)) + blockTerm (xnOf V c) (t.val / 16) (t.val % 16) p := by
  rw [accMid_eq, pay_step]

/-- So does the last column block, -/
theorem last_value (c : Dev nD) (t : Fin cfg0.N) (hc0 : ¬isFirst (grid0.coords t)) (hc1 : isLast (grid0.coords t))
    (xs : Vec Idealize.ShloMosaic.Ideal S1024x1 .f32) (p : Fin 1024) :
    accLast c (grid0.coords t) (mq t) (hmq t) (mk t) (hmk t) (mo t) (hmo t) accM (Memref.isWhole_whole _)
      hc0 hc1 (iblk V c 0 t) (iblk V c 1 t) xs (ix2 p (0 : Fin 1))
      = xs (ix2 p (0 : Fin 1)) + blockTerm (xnOf V c) (t.val / 16) (t.val % 16) p := by
  rw [accLast_eq, pay_step]

/-- and it copies the same value into the output block. -/
theorem last_out_value (c : Dev nD) (t : Fin cfg0.N) (hc0 : ¬isFirst (grid0.coords t)) (hc1 : isLast (grid0.coords t))
    (xs : Vec Idealize.ShloMosaic.Ideal S1024x1 .f32) (p : Fin 1024) :
    outLast c (grid0.coords t) (mq t) (hmq t) (mk t) (hmk t) (mo t) (hmo t) accM (Memref.isWhole_whole _)
      hc0 hc1 (iblk V c 0 t) (iblk V c 1 t) xs (ix2 p (0 : Fin 1))
      = xs (ix2 p (0 : Fin 1)) + blockTerm (xnOf V c) (t.val / 16) (t.val % 16) p := by
  rw [outLast_eq, pay_step]

/-- At a first column block the accumulator is restarted: it holds the first block's part. -/
theorem acc_first (c : Dev nD) (t : Fin cfg0.N) (h0 : t.val % 16 = 0) (p : Fin 1024) :
    (outsAt V c t.val t.isLt).2 (ix2 p (0 : Fin 1)) = blockTerm (xnOf V c) (t.val / 16) 0 p := by
  have hl : ¬isLast (grid0.coords t) := fun h => by have := (isLast_iff t).mp h; omega
  rw [outsAt_first V c t h0 hl]
  dsimp only
  exact first_value V c t h0 _ hl p

/-- At any later column block the accumulator holds what the point before left plus this block's part. -/
theorem acc_next (c : Dev nD) (t : Fin cfg0.N) (h0 : ¬t.val % 16 = 0) (p : Fin 1024) :
    (outsAt V c t.val t.isLt).2 (ix2 p (0 : Fin 1))
      = (outsAt V c (t.val - 1) (Nat.lt_of_le_of_lt (Nat.sub_le _ _) t.isLt)).2 (ix2 p (0 : Fin 1))
        + blockTerm (xnOf V c) (t.val / 16) (t.val % 16) p := by
  by_cases h1 : t.val % 16 = 15
  · rw [outsAt_last V c t h0 h1]
    dsimp only
    exact last_value V c t _ _ _ p
  · rw [outsAt_mid V c t h0 h1]
    dsimp only
    exact mid_value V c t _ _ _ p

/-- At a last column block the output block receives what the accumulator held plus this block's part. -/
theorem out_next (c : Dev nD) (t : Fin cfg0.N) (h1 : t.val % 16 = 15) (p : Fin 1024) :
    (outsAt V c t.val t.isLt).1 (ix2 p (0 : Fin 1))
      = (outsAt V c (t.val - 1) (Nat.lt_of_le_of_lt (Nat.sub_le _ _) t.isLt)).2 (ix2 p (0 : Fin 1))
        + blockTerm (xnOf V c) (t.val / 16) (t.val % 16) p := by
  have h0 : ¬t.val % 16 = 0 := by omega
  rw [outsAt_last V c t h0 h1]
  dsimp only
  exact last_out_value V c t _ _ _ p

/-- After point n the accumulator holds, for each of the row block's rows, the parts of the column blocks
    0 … n % 16 of its sum. -/
theorem acc_inv (c : Dev nD) (p : Fin 1024) : ∀ (n : ℕ) (hn : n < cfg0.N),
    (outsAt V c n hn).2 (ix2 p (0 : Fin 1)) = ∑ b ∈ Finset.range (n % 16 + 1), blockTerm (xnOf V c) (n / 16) b p
  | 0, hn => by
    rw [show (0 % 16 + 1) = 1 from rfl, Finset.sum_range_one]
    exact acc_first V c ⟨0, hn⟩ (Nat.zero_mod _) p
  | n + 1, hn => by
    by_cases h0 : (n + 1) % 16 = 0
    · rw [h0, Finset.sum_range_one]
      exact acc_first V c ⟨n + 1, hn⟩ h0 p
    · have ih := acc_inv c p n (Nat.lt_of_succ_lt hn)
      have e1 : (n + 1) % 16 = n % 16 + 1 := by omega
      have e2 : (n + 1) / 16 = n / 16 := by omega
      refine (acc_next V c ⟨n + 1, hn⟩ h0 p).trans ?_
      show (outsAt V c n _).2 (ix2 p (0 : Fin 1)) + blockTerm (xnOf V c) ((n + 1) / 16) ((n + 1) % 16) p = _
      rw [ih, e2, e1, Finset.sum_range_succ (fun b => blockTerm (xnOf V c) (n / 16) b p) (n % 16 + 1)]

/-- After a last column block the output block holds the row block's row sums. -/
theorem out_value (c : Dev nD) (t : Fin cfg0.N) (h1 : t.val % 16 = 15) (p : Fin 1024) (r : Fin 8192)
    (hr : r.val = t.val / 16 * 1024 + p.val) :
    (outsAt V c t.val t.isLt).1 (ix2 p (0 : Fin 1)) = Cert.Nce.rowSum (xnOf V c) r := by
  have hN : t.val < 128 := lt_of_lt_of_eq t.isLt (show cfg0.N = 128 from N_0)
  have ha : t.val / 16 < 8 := by omega
  have hpos : 0 < t.val := by omega
  have e1 : (t.val - 1) % 16 + 1 = 15 := by omega
  have e2 : (t.val - 1) / 16 = t.val / 16 := by omega
  rw [out_next V c t h1 p, acc_inv V c p (t.val - 1) _, e1, e2, h1,
    ← Finset.sum_range_succ (fun b => blockTerm (xnOf V c) (t.val / 16) b p) 15, Cert.Nce.sum_range_eq_sum_fin16]
  have e : ∀ b : Fin 16, blockTerm (xnOf V c) (t.val / 16) b.val p
      = Cert.Nce.blockSum (t.val / 16) b.val (Cert.Nce.rowBlock (xnOf V c) (t.val / 16) ha)
          (Cert.Nce.colBlock (xnOf V c) b.val b.isLt) p := fun b => dif_pos ⟨ha, b.isLt⟩
  rw [Finset.sum_congr rfl fun b _ => e b, Cert.Nce.rowSum_blocks]
  exact congrArg _ (Fin.ext hr.symm)

end Region

end Cert.KernelIdeal.Frm

end
-- ==== Proof.KI.RowSumValue.lean ====
/-
  The row-sum array after the kernel.

  The output window's block is written back exactly at the last column block of each row block, where it
  holds that row block's 1024 row sums. Those eight blocks tile the array of 8192 row sums: row r is in
  the block written back at point (r / 1024) * 16 + 15. So the array ends holding every row's sum.
-/
import proofs.«141833_j2508260901226_1_alg».proof.Proof.KI.AccInv
import Idealize.ShloMosaic.Lib.Pipeline.Value

set_option maxRecDepth 16384

noncomputable section

namespace Cert.KernelIdeal.Frm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Region
variable (V : (c : Dev nD) → (b : Ref sig .tc) → Buf (Elt Idealize.ShloMosaic.Ideal) ((c : Thread nD τ).loc b))

/-- The array of all 8192 row sums of the matrix the windows read. -/
def rowSums (c : Dev nD) : S8192x1.Idx → EReal :=
  fun j => Cert.Nce.rowSum (xnOf V c) ⟨(j 0).val, (j 0).isLt⟩

/-- What a write-back writes is its block of the array of row sums. -/
theorem flushed_eq (c : Dev nD) (t : Fin cfg0.N) (hf : (cfg0.win 2).flush t = true) :
    (dat V c).flushed 2 t = ((cfg0.win 2).blk t).view.read (Elt Idealize.ShloMosaic.Ideal) (rowSums V c) := by
  have hN : t.val < 128 := lt_of_lt_of_eq t.isLt (show cfg0.N = 128 from N_0)
  have h1 : t.val % 16 = 15 := (flush0_2 t).mp hf
  obtain ⟨-, -, -, -, e0, e1⟩ := index_val t
  funext j
  have hp : (j 0).val < 1024 := (j 0).isLt
  have hu : (j 1).val < 1 := (j 1).isLt
  rw [View.read_apply]
  show (cfg0.win 2).cut (grid0.coords t) ((dat V c).after 2 t) j = _
  rw [after_o]
  show (outsAt V c t.val t.isLt).1 ((cfg0.win 2).xinj (grid0.coords t) j) = rowSums V c (((cfg0.win 2).blk t).view.emb j)
  have hj : ((cfg0.win 2).xinj (grid0.coords t) j : S1024x1.Idx) = ix2 (⟨(j 0).val, hp⟩ : Fin 1024) (0 : Fin 1) :=
    funext fun a => Fin.ext (by
      match a with
      | ⟨0, _⟩ => rfl
      | ⟨1, _⟩ => show (j 1).val = 0; omega)
  rw [hj]
  refine (out_value V c t h1 ⟨(j 0).val, hp⟩ ⟨t.val / 16 * 1024 + (j 0).val, by omega⟩ rfl).trans ?_
  unfold rowSums
  refine congrArg (Cert.Nce.rowSum (xnOf V c)) (Fin.ext ?_)
  show t.val / 16 * 1024 + (j 0).val = win0_2.index t 0 * 1024 + 1 * (j 0).val
  rw [e0]; omega

/-- An index of the array is in point t's block exactly when each coordinate is in the block's range. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v6).slice (win0_2.rect t)).set ↔ _
  rw [View.set_slice_whole, Rect.mem_set_unit]
  exact Iff.rfl

/-- Every row is in the block written back at the last column block of its row block. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 128 := N_0
  have ht : (i 0).val / 1024 * 16 + 15 < cfg0.N := by omega
  refine ⟨⟨(i 0).val / 1024 * 16 + 15, ht⟩, (flush0_2 _).mpr (by show ((i 0).val / 1024 * 16 + 15) % 16 = 15; omega), ?_⟩
  rw [mem_blk]
  obtain ⟨-, -, -, -, e0, e1⟩ := index_val ⟨(i 0).val / 1024 * 16 + 15, ht⟩
  have e0' : win0_2.index ⟨(i 0).val / 1024 * 16 + 15, ht⟩ 0 = ((i 0).val / 1024 * 16 + 15) / 16 := e0
  intro a
  match a with
  | ⟨0, _⟩ =>
    show win0_2.index ⟨(i 0).val / 1024 * 16 + 15, ht⟩ 0 * 1024 ≤ (i 0).val
      ∧ (i 0).val < win0_2.index ⟨(i 0).val / 1024 * 16 + 15, ht⟩ 0 * 1024 + 1024
    rw [e0']; omega
  | ⟨1, _⟩ =>
    show win0_2.index ⟨(i 0).val / 1024 * 16 + 15, ht⟩ 1 * 1 ≤ (i 1).val
      ∧ (i 1).val < win0_2.index ⟨(i 0).val / 1024 * 16 + 15, ht⟩ 1 * 1 + 1
    rw [e1]; omega

/-- The row-sum array after the last point holds every row's sum. -/
theorem rowsum_array (c : Dev nD) : (dat V c).arrAt 2 cfg0.N = rowSums V c :=
  (dat V c).arrAt_eq_of_cover 2 (rowSums V c) (flushed_eq V c) covered

/-- Entry r of the row-sum array after the kernel is row r's sum of the matrix the windows read. -/
theorem rowsum_value (c : Dev nD) (r : Fin 8192) :
    ((dat (F := Idealize.ShloMosaic.Ideal) V c).arrAt 2 cfg0.N : S8192x1.Idx → EReal) (ix2 r (0 : Fin 1))
      = Cert.Nce.rowSum (fun r k => (V c main_v5 : S8192x256.Idx → EReal) (ix2 r k)) r := by
  rw [rowsum_array]
  rfl

end Region

end Cert.KernelIdeal.Frm

end
-- ==== Proof.TailValue.lean ====
/-
  The host operations that follow the kernel: from the row sums to the loss.

  The program divides every row sum by 8191, adds ε, takes the logarithm, sums the 8192 results from
  zero, and divides by 8192.  That is the specification's loss of the row sums.
-/
import proofs.«141833_j2508260901226_1_alg».proof.Proof.Gen.KernelIdeal
import proofs.«141833_j2508260901226_1_alg».proof.Proof.Spec
import Idealize.ShloMosaic.Lib.ValueIdx
import Idealize.ShloMosaic.PureOps.Ideal.Laws
import Idealize.ShloMosaic.Lib.Pipeline.Value
import Idealize.ShloMosaic.Lib.IdealHost

noncomputable section

namespace Cert.KernelIdeal.TailValue

open Idealize.ShloMosaic Idealize.ShloMosaic.ValueIdx Cert.KernelIdeal Cert.KernelIdeal.Gen

/-- The eleven host operations after the kernel, composed: the scalar result as a function of the
    [8192, 1] array of row sums. -/
def tail (rs : (⟨S8192x1, .f32⟩ : BufTy).Contents (Elt Ideal)) : (⟨S_, .f32⟩ : BufTy).Contents (Elt Ideal) :=
  Host.divf (F := Ideal)
    (Host.reduceAdd (F := Ideal)
      (Host.log (F := Ideal)
        (addf
          (Host.divf (F := Ideal) rs
            (broadcastInDim S8192x1 ![] bcast_S_S8192x1 (constant (F := Ideal) S_ .f32 0x45FFF800#32)))
          (broadcastInDim S8192x1 ![] bcast_S_S8192x1 (constant (F := Ideal) S_ .f32 0x322BCC77#32))))
      (constant (F := Ideal) S_ .f32 0x00000000#32) reducesTo_S8192x1_S_d0_1 h_S_)
    (constant (F := Ideal) S_ .f32 0x46000000#32)

/-- An array with 8192 rows of one entry is summed by summing its rows' entries. -/
theorem sum_idx_col {n : Nat} (f : (⟨2, ![n, 1]⟩ : Shape).Idx → EReal) :
    ∑ j, f j = ∑ r : Fin n, f (ix2 r (0 : Fin 1)) := by
  rw [sum_idx2]
  exact Finset.sum_congr rfl fun r _ => Fin.sum_univ_one _

/-- The logarithm stage at an index: the logarithm of the row sum over 8191 plus ε. -/
theorem log_stage_apply (rs : (⟨S8192x1, .f32⟩ : BufTy).Contents (Elt Ideal)) (j : S8192x1.Idx) :
    Host.log (F := Ideal)
        (addf
          (Host.divf (F := Ideal) rs
            (broadcastInDim S8192x1 ![] bcast_S_S8192x1 (constant (F := Ideal) S_ .f32 0x45FFF800#32)))
          (broadcastInDim S8192x1 ![] bcast_S_S8192x1 (constant (F := Ideal) S_ .f32 0x322BCC77#32))) j
      = Ideal.log (Ideal.div (rs j) Cert.Nce.nm1 + Cert.Nce.eps) := by
  show Ideal.log (Ideal.div (rs j)
      (broadcastInDim S8192x1 ![] bcast_S_S8192x1 (constant (F := Ideal) S_ .f32 0x45FFF800#32) j)
      + broadcastInDim S8192x1 ![] bcast_S_S8192x1 (constant (F := Ideal) S_ .f32 0x322BCC77#32) j) = _
  rw [broadcastInDim_scalar_apply, broadcastInDim_scalar_apply]
  rfl

/-- The host tail is the loss of the row sums. -/
theorem tail_value (rs : (⟨S8192x1, .f32⟩ : BufTy).Contents (Elt Ideal)) :
    tail rs = fun _ => Cert.Nce.loss (fun r => rs (ix2 r (0 : Fin 1))) := by
  funext i
  unfold tail
  rw [hostDivf_apply, hostReduceAdd_apply,
    Ideal.hostReduceAdd_total reducesTo_S8192x1_S_d0_1 (fun b => b.elim0), constant_apply, constant_apply,
    Ideal.ofBits_zero_f32, zero_add, sum_idx_col]
  simp only [log_stage_apply]
  rfl

end Cert.KernelIdeal.TailValue

end
-- ==== Proof.XnValue.lean ====
/-
  The normalised matrix the kernel's program feeds its windows is the reference's.

  Both programs divide each row of the argument by the larger of its Euclidean norm and a small constant;
  the kernel's program then converts the quotient to a narrower format, which at the ideal values changes
  nothing. Here the eleven host operations before the launch are composed into ONE function of the
  argument, the buffers after them are read off as that function, and at the ideal values the function is
  the reference's corresponding stage.
-/
import proofs.«141833_j2508260901226_1_alg».proof.Proof.Gen.KernelIdeal.Launch
import proofs.«141833_j2508260901226_1_alg».proof.Proof.Gen.ReferenceIdeal.Read
import Idealize.ShloMosaic.Lib.StableHlo.Run

noncomputable section

namespace Cert.KernelIdeal.XnValue

open Idealize.ShloMosaic Cert.KernelIdeal Cert.KernelIdeal.Gen

variable {F : FTy → Type} [FloatOps F]

/-- The argument, each row divided by the larger of its norm and the small constant, converted to the
    narrower format: the eleven operations before the launch, composed in program order. -/
def xn (x0 : (⟨S8192x256, .f32⟩ : BufTy).Contents (Elt F)) : (⟨S8192x256, .bf16⟩ : BufTy).Contents (Elt F) :=
  truncf .bf16
    (Host.divf x0
      (broadcastInDim S8192x256 ![0, 1] bcast_S8192x1_S8192x256_0_1
        (maximumf
          (Host.sqrt
            (broadcastInDim S8192x1 ![0] bcast_S8192_S8192x1_0
              (Host.reduceAdd (mulf x0 x0) (constant S_ .f32 0x00000000#32) reducesTo_S8192x256_S8192_d1 h_S_)))
          (broadcastInDim S8192x1 ![] bcast_S_S8192x1 (constant S_ .f32 0x2B8CBCCC#32)))))
    bitsLt_bf16_f32

/-- After the two stretches of host operations the windows' array holds that function of the argument. -/
theorem xn_after (W : Valuation τ sig (Elt F)) :
    StableHlo.after hostOps0_1 (StableHlo.after hostOps0 W) (Proc.devRef .tc main_v5)
      = xn (W (Proc.devRef .tc main_arg0)) := by
  after_results_simp <;> rfl

/-- No operation of the two stretches writes the argument. -/
theorem arg_after (W : Valuation τ sig (Elt F)) :
    StableHlo.after hostOps0_1 (StableHlo.after hostOps0 W) (Proc.devRef .tc main_arg0)
      = W (Proc.devRef .tc main_arg0) := by
  after_results_simp <;> rfl

/-- Nor does any operation after the launch. -/
theorem arg_after1 (W : Valuation τ sig (Elt F)) :
    StableHlo.after hostOps1 W (Proc.devRef .tc main_arg0) = W (Proc.devRef .tc main_arg0) := by
  after_results_simp <;> rfl

/-- At the ideal values the conversion is the identity, and what is left is the reference's quotient: the
    same operations on the same argument. -/
theorem xn_eq_ref (x0 : (⟨S8192x256, .f32⟩ : BufTy).Contents (Elt Idealize.ShloMosaic.Ideal)) :
    (xn (F := Idealize.ShloMosaic.Ideal) x0 : S8192x256.Idx → EReal)
      = Cert.ReferenceIdeal.Read.val_main_v4 (F := Idealize.ShloMosaic.Ideal) x0 := by
  unfold xn Cert.ReferenceIdeal.Read.val_main_v4 Cert.ReferenceIdeal.Read.val_main_v3
    Cert.ReferenceIdeal.Read.val_main_v2 Cert.ReferenceIdeal.Read.val_main_v1 Cert.ReferenceIdeal.Read.val_main_cst
    Cert.ReferenceIdeal.Read.val_main_v0 Cert.ReferenceIdeal.Read.val_main_call0_v2
    Cert.ReferenceIdeal.Read.val_main_call0_v1 Cert.ReferenceIdeal.Read.val_main_call0_cst
    Cert.ReferenceIdeal.Read.val_main_call0_v0
  rfl

end Cert.KernelIdeal.XnValue

end
-- ==== Proof.KI.Value.lean ====
/-
  The idealized kernel program's result, as the specification's loss.

  At the ideal values the program's last stretch of host operations is the mean of the logarithms of the row sums; the
  region's row-sum array holds, row by row, the sum over all columns of the off-diagonal exponentials of the normalised
  matrix's inner products; and the normalised matrix the region reads is the reference's own (the conversion to bf16 is
  the identity there).
-/
import proofs.«141833_j2508260901226_1_alg».proof.Proof.KI.Frame
import proofs.«141833_j2508260901226_1_alg».proof.Proof.KI.RowSumValue
import proofs.«141833_j2508260901226_1_alg».proof.Proof.TailValue
import proofs.«141833_j2508260901226_1_alg».proof.Proof.XnValue
import proofs.«141833_j2508260901226_1_alg».proof.Proof.Spec
import Idealize.ShloMosaic.Lib.StableHlo.Run
import Idealize.ShloMosaic.Lib.ValueIdx

set_option maxRecDepth 16384

noncomputable section

namespace Cert.KernelIdeal.Frm

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Idealize.ShloMosaic.Ideal) ℓ) (ρ : Dev nD → PrngReg)

/-- The result buffer at the last boundary is the host tail of the row-sum array as the region left it. -/
theorem W4_result (c : Dev nD) :
    W4 m ρ c (Proc.devRef .tc main_v13) = Cert.KernelIdeal.TailValue.tail (W3 m ρ c (Proc.devRef .tc main_v6)) := by
  unfold W4; after_results_simp <;> rfl

/-- The normalised matrix the region reads is the one function of the argument array. -/
theorem V2_xn (c : Dev nD) : V2 m ρ c main_v5 = Cert.KernelIdeal.XnValue.xn (m ((c : Thread nD τ).loc main_arg0)) := by
  show W2 m ρ c (Proc.devRef .tc main_v5) = _
  unfold W2 W1; exact Cert.KernelIdeal.XnValue.xn_after _

/-- The row-sum array at the region's exit is what the write-backs left. -/
theorem W3_out (c : Dev nD) : W3 m ρ c (Proc.devRef .tc main_v6) = (dat (V2 m ρ) c).arrAt 2 cfg0.N := by
  unfold W3; exact Function.update_self ..

/-- The program's result: the specification's loss of the row sums of the reference's normalised matrix. -/
theorem kernel_value (c : Dev nD) :
    W4 m ρ c (Proc.devRef .tc main_v13)
      = fun _ => Cert.Nce.loss (Cert.Nce.rowSum (fun r k => Cert.ReferenceIdeal.Read.val_main_v4 (F := Idealize.ShloMosaic.Ideal) (m ((c : Thread nD τ).loc main_arg0)) (ix2 r k))) := by
  rw [W4_result, W3_out, Cert.KernelIdeal.TailValue.tail_value]
  funext _
  refine congrArg Cert.Nce.loss (funext fun r => ?_)
  rw [rowsum_value (V2 m ρ) c r]
  refine congrArg (fun x => Cert.Nce.rowSum x r) (funext fun r' => funext fun k => ?_)
  show (V2 m ρ c main_v5 : S8192x256.Idx → EReal) (ix2 r' k) = _
  rw [V2_xn, Cert.KernelIdeal.XnValue.xn_eq_ref]

end Cert.KernelIdeal.Frm

end
-- ==== Proof.RefValue.lean ====
/-
  The reference's scalar result as the loss of the row sums of the normalised matrix.

  The reference normalises the rows of its input, takes every inner product of two rows, divides by the
  temperature, exponentiates, multiplies by one minus the diagonal's indicator, sums every row, and
  takes the mean over rows of the logarithm of (row sum / 8191 + ε).  Entry by entry this is the
  specification's pair term; row by row its row sum; and the last three operations are its loss.
  The normalised matrix itself is never opened.
-/
import proofs.«141833_j2508260901226_1_alg».proof.Proof.Gen.ReferenceIdeal.Read
import proofs.«141833_j2508260901226_1_alg».proof.Proof.Spec
import Idealize.ShloMosaic.Lib.ValueIdx
import Idealize.ShloMosaic.Lib.IdealHost

noncomputable section

namespace Cert.ReferenceIdeal.RefValue

open Idealize.ShloMosaic Idealize.ShloMosaic.ValueIdx Cert.ReferenceIdeal Cert.ReferenceIdeal.Read

/-- Two naturals below 8192 have equal 32-bit words exactly when they are equal: the comparison word of
    r + 0 against c, read as an unsigned integer, is one on the diagonal and zero off it. -/
theorem mask_toNat (r c : Fin 8192) :
    (IntOp.cmpi .eq (IntOp.addi (BitVec.ofNat 32 r.val) 0#32) (BitVec.ofNat 32 c.val)).toNat
      = if r.val = c.val then 1 else 0 := by
  have hr : r.val < 2 ^ 32 := lt_trans r.isLt (by norm_num)
  have hc : c.val < 2 ^ 32 := lt_trans c.isLt (by norm_num)
  show (BitVec.ofBool (BitVec.ofNat 32 r.val + 0#32 == BitVec.ofNat 32 c.val)).toNat = _
  rw [BitVec.add_zero]
  by_cases h : r.val = c.val
  · rw [if_pos h, h, beq_self_eq_true]; rfl
  · rw [if_neg h]
    have hne : (BitVec.ofNat 32 r.val == BitVec.ofNat 32 c.val) = false := by
      rw [beq_eq_false_iff_ne]
      intro e
      have e' := congrArg BitVec.toNat e
      rw [BitVec.toNat_ofNat, BitVec.toNat_ofNat, Nat.mod_eq_of_lt hr, Nat.mod_eq_of_lt hc] at e'
      exact h e'
    rw [hne]; rfl

/-- The diagonal's indicator as an extended real. -/
theorem mask_value (r c : Fin 8192) :
    FloatOps.uitofp (F := Ideal) .f32 (IntOp.cmpi .eq (IntOp.addi (BitVec.ofNat 32 r.val) 0#32) (BitVec.ofNat 32 c.val))
      = if r.val = c.val then (1 : EReal) else 0 := by
  show (((IntOp.cmpi .eq (IntOp.addi (BitVec.ofNat 32 r.val) 0#32) (BitVec.ofNat 32 c.val)).toNat : ℝ) : EReal) = _
  rw [mask_toNat]
  by_cases h : r.val = c.val
  · rw [if_pos h, if_pos h]; norm_num
  · rw [if_neg h, if_neg h]; norm_num

/-- One entry of the masked exponentials is the specification's pair term of the normalised matrix. -/
theorem entry_value (x0 : (⟨S8192x256, .f32⟩ : BufTy).Contents (Elt Ideal)) (r c : Fin 8192) :
    val_main_v18 (F := Ideal) x0 (ix2 r c)
      = Cert.Nce.pairTerm (fun r k => val_main_v4 (F := Ideal) x0 (ix2 r k)) r c := by
  rw [val_main_v18_apply, val_main_v9_apply, val_main_v8_apply, val_main_v6_apply, val_main_v7_apply,
    val_main_cst_0_apply, val_main_v17_apply, val_main_v16_apply, val_main_cst_1_apply, val_main_v15_apply,
    val_main_v14_apply, val_main_v13_apply, val_main_v10_apply, val_main_v12_apply, val_main_c_apply,
    val_main_v11_apply]
  simp only [val_main_v5_apply]
  have el : ∀ k : Fin 256, lidx_main_v6 (ix2 r c) k = ix2 r k := fun k =>
    funext fun a => Fin.ext (by match a with | ⟨0, _⟩ => rfl | ⟨1, _⟩ => rfl)
  have er : ∀ k : Fin 256, idx_main_v5 (ridx_main_v6 (ix2 r c) k) = ix2 c k := fun k =>
    funext fun a => Fin.ext (by match a with | ⟨0, _⟩ => rfl | ⟨1, _⟩ => rfl)
  simp only [el, er]
  have hmask : FloatOps.uitofp (F := Ideal) .f32 (IntOp.cmpi .eq (IntOp.addi (BitVec.ofNat 32 (ix2 r c 0).val) 0#32)
      (BitVec.ofNat 32 (ix2 r c 1).val)) = if r.val = c.val then (1 : EReal) else 0 := mask_value r c
  rw [hmask]
  simp only [Ideal.mulf_def, Ideal.hostUnary_exp_def, Ideal.hostDivf_def, Ideal.subf_def, Ideal.ofBits_def, Ideal.ofBits_one_f32]
  unfold Cert.Nce.pairTerm Cert.Nce.sim Cert.Nce.tau
  by_cases h : r.val = c.val
  · rw [if_pos h, if_pos h, show ((1 : EReal) - 1) = 0 by
      rw [← EReal.coe_one, ← EReal.coe_sub, sub_self, EReal.coe_zero]]
    exact mul_zero _
  · rw [if_neg h, if_neg h, sub_zero, mul_one]

/-- The rank-1 indices are the naturals below the extent: a sum over them is the sum over the coordinate. -/
theorem sum_idx1 {n : Nat} (f : (⟨1, ![n]⟩ : Shape).Idx → EReal) : ∑ j, f j = ∑ r : Fin n, f (ix1 r) := by
  let e : (⟨1, ![n]⟩ : Shape).Idx ≃ Fin n :=
    { toFun := fun j => j 0, invFun := fun r => ix1 r, left_inv := fun j => (eq_ix1 j).symm, right_inv := fun _ => rfl }
  rw [← Equiv.sum_comp e.symm f]
  rfl

/-- A row's sum of the masked exponentials is the specification's row sum. -/
theorem row_value (x0 : (⟨S8192x256, .f32⟩ : BufTy).Contents (Elt Ideal)) (r : Fin 8192) :
    val_main_v19 (F := Ideal) x0 (ix1 r)
      = Cert.Nce.rowSum (fun r k => val_main_v4 (F := Ideal) x0 (ix2 r k)) r := by
  rw [val_main_v19_apply, val_main_cst_2_apply, Ideal.ofBits_def, Ideal.ofBits_zero_f32, zero_add]
  unfold Cert.Nce.rowSum
  refine Finset.sum_congr rfl fun c _ => ?_
  have e : idx_main_v19 (ix1 r) c = ix2 r c :=
    funext fun a => Fin.ext (by match a with | ⟨0, _⟩ => rfl | ⟨1, _⟩ => rfl)
  rw [e, entry_value]

/-- The logarithm stage at a row. -/
theorem log_value (x0 : (⟨S8192x256, .f32⟩ : BufTy).Contents (Elt Ideal)) (r : Fin 8192) :
    val_main_v24 (F := Ideal) x0 (ix1 r)
      = Ideal.log (Ideal.div (Cert.Nce.rowSum (fun r k => val_main_v4 (F := Ideal) x0 (ix2 r k)) r) Cert.Nce.nm1 + Cert.Nce.eps) := by
  rw [val_main_v24_apply, val_main_v23_apply, val_main_v21_apply, val_main_v20_apply, val_main_cst_3_apply,
    val_main_v22_apply, val_main_cst_4_apply, row_value]
  rfl

/-- The reference's result is the loss of the row sums of the normalised matrix. -/
theorem ref_value (x0 : (⟨S8192x256, .f32⟩ : BufTy).Contents (Elt Ideal)) :
    val_main_v26 (F := Ideal) x0
      = fun _ => Cert.Nce.loss (Cert.Nce.rowSum (fun r k => val_main_v4 (F := Ideal) x0 (ix2 r k))) := by
  funext i
  rw [val_main_v26_apply, val_main_v25_apply, val_main_cst_5_apply, val_main_cst_6_apply, Ideal.ofBits_def,
    Ideal.ofBits_zero_f32, zero_add, sum_idx1]
  simp only [log_value]
  rfl

end Cert.ReferenceIdeal.RefValue

end
-- ==== Proof.lean ====
/-
  The certificate: a contrastive row-sum loss computed by a tiled kernel, against its plain reference.

  Both programs normalise the rows of the 8192 × 256 input, form every pair's inner product divided by the temperature,
  exponentiate, drop the diagonal, sum each row, and take the mean over rows of log (rowsum / 8191 + ε). The kernel walks the
  8192 × 8192 similarity matrix in tiles of 1024 rows by 512 columns, keeps a per-row accumulator across the 16 column tiles of
  a row block (restarted at the first, written out at the last), and masks the diagonal by a select; the reference forms the
  whole matrix, multiplies by one minus the identity, and sums each row at once. Over the extended reals the two agree: a sum
  may be taken block by block in any grouping, a factor (1 - 1) annihilates and a factor (1 - 0) is neutral, the conversion of
  the normalised matrix to a narrower format is the identity, and the tile's matrix product is the same contraction as the
  reference's.

  The three frames: each program terminates without a fault and leaves its argument as launched. For the two kernel programs
  this is the run of the region over the pipeline's proof data (Proof/K, Proof/KI: the three control cases of the body, the
  accumulator named point by point, the normalised matrix held at two half shares because both input windows read it); for
  the reference it is its run read back. The idealization rewrote nothing, so there is nothing to preserve. The algebraic
  claim: the kernel program's result is the specification's loss of the row sums (Proof/KI/Value), and so is the reference's
  (Proof/RefValue), of one and the same normalised matrix.
-/
import proofs.«141833_j2508260901226_1_alg».proof.Defs
import proofs.«141833_j2508260901226_1_alg».proof.Proof.Gen.Kernel
import proofs.«141833_j2508260901226_1_alg».proof.Proof.Gen.Kernel.Skeleton
import proofs.«141833_j2508260901226_1_alg».proof.Proof.Gen.Kernel.Launch
import proofs.«141833_j2508260901226_1_alg».proof.Proof.Gen.Kernel.Points
import proofs.«141833_j2508260901226_1_alg».proof.Proof.Gen.KernelIdeal
import proofs.«141833_j2508260901226_1_alg».proof.Proof.Gen.KernelIdeal.Skeleton
import proofs.«141833_j2508260901226_1_alg».proof.Proof.Gen.KernelIdeal.Launch
import proofs.«141833_j2508260901226_1_alg».proof.Proof.Gen.KernelIdeal.Points
import proofs.«141833_j2508260901226_1_alg».proof.Proof.Gen.ReferenceIdeal
import proofs.«141833_j2508260901226_1_alg».proof.Proof.Gen.ReferenceIdeal.Run
import proofs.«141833_j2508260901226_1_alg».proof.Proof.Gen.ReferenceIdeal.Read
import proofs.«141833_j2508260901226_1_alg».proof.Proof.Gen.Pre_finite_inputs
import proofs.«141833_j2508260901226_1_alg».proof.Proof.K.Frame
import proofs.«141833_j2508260901226_1_alg».proof.Proof.KI.Frame
import proofs.«141833_j2508260901226_1_alg».proof.Proof.KI.Value
import proofs.«141833_j2508260901226_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Frm.frame m ρ

theorem frame_pi : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Idealize.ShloMosaic.Ideal) m ρ)

/-- The idealization rewrote no operation. -/
theorem preserves : Cert.preserves_Kernel_KernelIdeal := trivial

/-- Both runs end at the specification's loss of the row sums of the one normalised matrix. -/
theorem algebraic : Cert.algebraic_KernelIdeal_ReferenceIdeal := by
  intro m ρ m' ρ' _ hagree
  refine ⟨fun c => fun _ => Cert.Nce.loss (Cert.Nce.rowSum (fun r k =>
      Cert.ReferenceIdeal.Read.val_main_v4 (F := Idealize.ShloMosaic.Ideal) (m ((c.tc : Thread Cert.KernelIdeal.nD Cert.KernelIdeal.τ).loc Cert.KernelIdeal.main_arg0)) (ix2 r k))), ?_, ?_⟩
  · exact (θ_run Cert.KernelIdeal.defs _ _).mono (fun _ h c => ⟨(h c).1.trans (Cert.KernelIdeal.Frm.kernel_value m ρ c), (h c).2⟩)
      (Cert.KernelIdeal.Frm.run_result m ρ)
  · refine (θ_run Cert.ReferenceIdeal.defs _ _).mono (fun _ h c => ⟨(h c).1.trans ?_, (h c).2⟩)
      (Cert.ReferenceIdeal.Value.run (F := Idealize.ShloMosaic.Ideal) m' ρ')
    rw [Cert.ReferenceIdeal.Read.val_main_v26_eq, Cert.ReferenceIdeal.RefValue.ref_value, hagree c]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
